-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call2_v0 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_call3_v0 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelBody.lean ====
/-
  The kernel body at a SYMBOLIC grid point. The grid is (8 row blocks) × (8 column blocks), the column axis innermost.
  At point (i, j) the body: if j = 0 resets the two scratch columns to −∞ and +∞; loads the row block and the column
  block of the features, of the squared norms and of the labels; forms the block's row maxima of the positive
  candidates and row minima of the negative candidates; folds them into the scratch columns (max into the first, min
  into the second); and if j = 7 stores max (first − second + 1) 0 into the output's staging buffer, which it leaves
  alone at every other j. Three runs, one per kind of point (first / middle / last column block), each from the six
  input buffers at given blocks and the scratch columns at given contents, to the contents the stores leave, read as
  the canonical overlay of the stored pieces.
-/
import proofs.«134578_j63556926046454_2_alg».proof.Proof.Gen.Kernel
import proofs.«134578_j63556926046454_2_alg».proof.Proof.Gen.Kernel.Skeleton
import proofs.«134578_j63556926046454_2_alg».proof.Proof.Gen.Kernel.Launch
import proofs.«134578_j63556926046454_2_alg».proof.Proof.Gen.Kernel.Points
import Idealize.ShloMosaic.Lib.Writes
import Idealize.ShloMosaic.Lib.Pipeline.FrameBody
import Idealize.ShloMosaic.Lib.Tactic

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two scratch columns, whole. -/
abbrev sc0 : Memref sig .tc .vmem S1024x1 .f32 := Memref.whole cc0_scratch0
abbrev sc1 : Memref sig .tc .vmem S1024x1 .f32 := Memref.whole cc0_scratch1
/-- The rectangles every access goes through: each block whole, at zero offsets. -/
abbrev rC : Rect S1024x1 := Rect.unit (s := S1024x1) ![0, 0] S1024x1.size inb_S1024x1_S1024x1_0_0
abbrev rA : Rect S1024x128 := Rect.unit (s := S1024x128) ![0, 0] S1024x128.size inb_S1024x128_S1024x128_0_0
abbrev rR : Rect S1x1024 := Rect.unit (s := S1x1024) ![0, 0] S1x1024.size inb_S1x1024_S1x1024_0_0

/-- The branch conditions at point `t`: "j = 0" as the body computes it, "j = 7" as the program names it. -/
abbrev IsFirst (t : Fin cfg0.N) : Prop := Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

/-- The block's row maxima of the positive candidates and row minima of the negative ones, of the six input blocks. -/
abbrev blkMax (x0 x1 : Vec F S1024x128 .f32) (x2 : Vec F S1024x1 .f32) (x3 : Vec F S1x1024 .f32) (x4 : Vec F S1024x1 .i32) (x5 : Vec F S1x1024 .i32) : FVec F S1024x1 .f32 :=
  k0_pay8 (View.ld x0 rA) (View.ld x1 rA) (View.ld x2 rC) (View.ld x3 rR) (View.ld x4 rC) (View.ld x5 rR)
abbrev blkMin (x0 x1 : Vec F S1024x128 .f32) (x2 : Vec F S1024x1 .f32) (x3 : Vec F S1x1024 .f32) (x4 : Vec F S1024x1 .i32) (x5 : Vec F S1x1024 .i32) : FVec F S1024x1 .f32 :=
  k0_pay9 (View.ld x0 rA) (View.ld x1 rA) (View.ld x2 rC) (View.ld x3 rR) (View.ld x4 rC) (View.ld x5 rR)

/-- The running maximum after a later column block: its contents folded with the block's maxima; -/
abbrev stepM (a : Vec F S1024x1 .f32) (p : FVec F S1024x1 .f32) : Vec F S1024x1 .f32 := View.canon [⟨rC, k0_pay1 p (View.ld a rC)⟩]
/-- the running minimum likewise. -/
abbrev stepL (b : Vec F S1024x1 .f32) (p : FVec F S1024x1 .f32) : Vec F S1024x1 .f32 := View.canon [⟨rC, k0_pay2 p (View.ld b rC)⟩]
/-- After a first column block: reset to −∞ (to +∞), read back, folded with the block's maxima (minima). -/
abbrev firstM (p : FVec F S1024x1 .f32) : Vec F S1024x1 .f32 :=
  View.canon [⟨rC, k0_pay1 p (sc0.view.readCov [⟨rC, k0_pay4 (F := F)⟩] rC.toLoadRect)⟩, ⟨rC, k0_pay4 (F := F)⟩]
abbrev firstL (p : FVec F S1024x1 .f32) : Vec F S1024x1 .f32 :=
  View.canon [⟨rC, k0_pay2 p (sc1.view.readCov [⟨rC, k0_pay5 (F := F)⟩] rC.toLoadRect)⟩, ⟨rC, k0_pay5 (F := F)⟩]
/-- The output block a last column block stores: the two scratch columns read back through their last stores. -/
abbrev outv (a b : Vec F S1024x1 .f32) (p q : FVec F S1024x1 .f32) : Vec F S1024x1 .f32 :=
  View.canon [⟨rC, k0_pay3 (sc0.view.readCov [⟨rC, k0_pay1 p (View.ld a rC)⟩] rC.toLoadRect) (sc1.view.readCov [⟨rC, k0_pay2 q (View.ld b rC)⟩] rC.toLoadRect)⟩]

omit [FloatOps F] in
theorem cover1 (p : Vec F S1024x1 .f32) (y : S1024x1.Idx) : ∃ pc ∈ ([⟨rC, p⟩] : List (View.Piece (Elt F) S1024x1 .f32)), y ∈ pc.1.set :=
  View.cover_of_tiled [⟨rC, p⟩] S1024x1.size (by rfl) y
omit [FloatOps F] in
theorem cover2 (p q : Vec F S1024x1 .f32) (y : S1024x1.Idx) : ∃ pc ∈ ([⟨rC, p⟩, ⟨rC, q⟩] : List (View.Piece (Elt F) S1024x1 .f32)), y ∈ pc.1.set :=
  View.cover_of_tiled [⟨rC, p⟩, ⟨rC, q⟩] S1024x1.size (by rfl) y

section Runs

variable (c : Dev nD) (t : Fin cfg0.N)
  (M0 : Memref sig .tc .vmem S1024x128 .f32) (h0 : M0.IsWhole) (M1 : Memref sig .tc .vmem S1024x128 .f32) (h1 : M1.IsWhole)
  (M2 : Memref sig .tc .vmem S1024x1 .f32) (h2 : M2.IsWhole) (M3 : Memref sig .tc .vmem S1x1024 .f32) (h3 : M3.IsWhole)
  (M4 : Memref sig .tc .vmem S1024x1 .i32) (h4 : M4.IsWhole) (M5 : Memref sig .tc .vmem S1x1024 .i32) (h5 : M5.IsWhole)
  (M6 : Memref sig .tc .vmem S1024x1 .f32) (h6 : M6.IsWhole)
  (x0 x1 : Vec F S1024x128 .f32) (x2 : Vec F S1024x1 .f32) (x3 : Vec F S1x1024 .f32) (x4 : Vec F S1024x1 .i32) (x5 : Vec F S1x1024 .i32)
  (a b : Vec F S1024x1 .f32)

local notation "BODY" => cc0__triplet_kernel (grid0.coords t) M0 h0 M1 h1 M2 h2 M3 h3 M4 h4 M5 h5 M6 h6 (Memref.whole cc0_scratch0) (Memref.isWhole_whole _) (Memref.whole cc0_scratch1) (Memref.isWhole_whole _)

/-- The six input buffers at their blocks: what every run takes and gives back untouched. -/
abbrev ins : sProp 𝕄 :=
  iprop(owns (c : Thread nD τ) M0 fullShare x0 ∗ owns (c : Thread nD τ) M1 fullShare x1 ∗ owns (c : Thread nD τ) M2 fullShare x2
    ∗ owns (c : Thread nD τ) M3 fullShare x3 ∗ owns (c : Thread nD τ) M4 fullShare x4 ∗ owns (c : Thread nD τ) M5 fullShare x5)

/-- A first column block (j = 0): the scratch columns, whatever they held, end at `firstM` / `firstL` of the block's maxima and
    minima; the output's buffer is untouched. -/
theorem run_first (hF : IsFirst t) (hL : ¬ IsLast t) (O : sProp 𝕄) (Q : PUnit → sProp 𝕄) :
    iprop(ins c M0 M1 M2 M3 M4 M5 x0 x1 x2 x3 x4 x5 ∗ O
      ∗ (∃ a, owns (c : Thread nD τ) sc0 fullShare a) ∗ (∃ b, owns (c : Thread nD τ) sc1 fullShare b)
      ∗ (iprop(ins c M0 M1 M2 M3 M4 M5 x0 x1 x2 x3 x4 x5 ∗ O
          ∗ owns (c : Thread nD τ) sc0 fullShare (firstM (blkMax x0 x1 x2 x3 x4 x5))
          ∗ owns (c : Thread nD τ) sc1 fullShare (firstL (blkMin x0 x1 x2 x3 x4 x5))) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, HO, ⟨%a', %fa, %hfa, Ha⟩, ⟨%b', %fb, %hfb, Hb⟩, Hk⟩
  subst hf0 hf1 hf2 hf3 hf4 hf5
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [HO]; · iexact HO
  isplitl [Ha]
  · iexists _; isplitr; swap; (· iexact Ha); ipureintro; exact View.read_writes_eq_canon _ _ _ (cover2 _ _)
  · iexists _; isplitr; swap; (· iexact Hb); ipureintro; exact View.read_writes_eq_canon _ _ _ (cover2 _ _)

/-- A middle column block: the scratch columns at `a`, `b` end at `stepM a`, `stepL b` of the block's maxima and minima; the
    output's buffer is untouched. -/
theorem run_mid (hF : ¬ IsFirst t) (hL : ¬ IsLast t) (O : sProp 𝕄) (Q : PUnit → sProp 𝕄) :
    iprop(ins c M0 M1 M2 M3 M4 M5 x0 x1 x2 x3 x4 x5 ∗ O
      ∗ owns (c : Thread nD τ) sc0 fullShare a ∗ owns (c : Thread nD τ) sc1 fullShare b
      ∗ (iprop(ins c M0 M1 M2 M3 M4 M5 x0 x1 x2 x3 x4 x5 ∗ O
          ∗ owns (c : Thread nD τ) sc0 fullShare (stepM a (blkMax x0 x1 x2 x3 x4 x5))
          ∗ owns (c : Thread nD τ) sc1 fullShare (stepL b (blkMin x0 x1 x2 x3 x4 x5))) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, HO, ⟨%fa, %hfa, Ha⟩, ⟨%fb, %hfb, Hb⟩, Hk⟩
  subst hf0 hf1 hf2 hf3 hf4 hf5 hfa hfb
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [HO]; · iexact HO
  isplitl [Ha]
  · iexists _; isplitr; swap; (· iexact Ha); ipureintro; exact View.read_writes_eq_canon _ _ _ (cover1 _)
  · iexists _; isplitr; swap; (· iexact Hb); ipureintro; exact View.read_writes_eq_canon _ _ _ (cover1 _)

/-- A last column block (j = 7): the scratch columns end as at a middle one, and the output's buffer, whatever it held, at
    `outv`. -/
theorem run_last (hF : ¬ IsFirst t) (hL : IsLast t) (Q : PUnit → sProp 𝕄) :
    iprop(ins c M0 M1 M2 M3 M4 M5 x0 x1 x2 x3 x4 x5 ∗ (∃ d, owns (c : Thread nD τ) M6 fullShare d)
      ∗ owns (c : Thread nD τ) sc0 fullShare a ∗ owns (c : Thread nD τ) sc1 fullShare b
      ∗ (iprop(ins c M0 M1 M2 M3 M4 M5 x0 x1 x2 x3 x4 x5
          ∗ owns (c : Thread nD τ) M6 fullShare (outv a b (blkMax x0 x1 x2 x3 x4 x5) (blkMin x0 x1 x2 x3 x4 x5))
          ∗ owns (c : Thread nD τ) sc0 fullShare (stepM a (blkMax x0 x1 x2 x3 x4 x5))
          ∗ owns (c : Thread nD τ) sc1 fullShare (stepL b (blkMin x0 x1 x2 x3 x4 x5))) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%fa, %hfa, Ha⟩, ⟨%fb, %hfb, Hb⟩, Hk⟩
  subst hf0 hf1 hf2 hf3 hf4 hf5 hfa hfb
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro; exact View.read_writes_eq_canon _ _ _ (cover1 _)
  isplitl [Ha]
  · iexists _; isplitr; swap; (· iexact Ha); ipureintro; exact View.read_writes_eq_canon _ _ _ (cover1 _)
  · iexists _; isplitr; swap; (· iexact Hb); ipureintro; exact View.read_writes_eq_canon _ _ _ (cover1 _)

end Runs

end Cert.Proof.KernelFrame

end
-- ==== Proof.KernelData.lean ====
/-
  The pipeline's proof data and the body obligation at every grid point.

  Before the region @main computes, on the host, the labels as a column and as a row, the squared norms as a column and
  as a row; the region's seven windows are: the features' row block and column block (TWO windows on ONE array), the
  norms' column block and row block, the labels' column block and row block, and the output column's row block. The six
  inputs are only read, so each staging buffer holds, at every point, the block last fetched into it. The two scratch
  columns carry the running maximum and minimum along a row block's eight column blocks: anything before the first,
  then what each point leaves, by recursion on the point. The output's staging buffer is stored at a row block's last
  column block only, and written back there.
-/
import proofs.«134578_j63556926046454_2_alg».proof.Proof.KernelBody
import Idealize.ShloMosaic.Lib.Pipeline.Regions
import Idealize.ShloMosaic.Lib.Pipeline.Frame

noncomputable section

namespace Cert.Proof.KernelFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf heldIn)

variable {F : FTy → Type} [FloatOps F]

local notation "𝕄" => MT nD τ sig Unit (Elt F) ℕ (UR sig nD τ) ℕ

variable (m : (ℓ : Loc nD τ sig) → Buf (Elt F) ℓ)

/-! ## @main before the region -/

/-- Core `c`'s buffers at launch, as the host operations' valuation; -/
abbrev V₀ (c : Dev nD) : Valuation τ sig (Elt F) := fun b => m ((c : Dev nD), b)
/-- and when the region is entered: the seven host operations have run. -/
abbrev V (c : Dev nD) (b : Ref sig .tc) : Buf (Elt F) ((c : Thread nD τ).loc b) := StableHlo.after hostOps0 (V₀ m c) b
/-- Each window's array at the region's entry. -/
abbrev arrA (c : Dev nD) (w : Fin cfg0.W) : Buf (Elt F) ((cfg0.win w).arr.view.loc (c : Thread nD τ)) := V m c (Pipeline.arrRef spec0 w)

/-! ## The kinds of point -/

/-- A point is a row block's first column block iff its number is ≡ 0 (mod 8), its last iff ≡ 7. -/
theorem isFirst_iff : ∀ t : Fin cfg0.N, IsFirst t ↔ t.val % 8 = 0 :=
  (by decide +kernel : ∀ t : Fin grid0.N, (Scalar.cmpi .ne (Scalar.extui (Scalar.cmpi .eq (BitVec.ofNat 32 ((grid0.coords t) 1).val) 0#32)) 0#32 = 1#1) ↔ t.val % 8 = 0)
theorem isLast_iff : ∀ t : Fin cfg0.N, IsLast t ↔ t.val % 8 = 7 :=
  (by decide +kernel : ∀ t : Fin grid0.N, k0_cond2 (grid0.coords t) = 1#1 ↔ t.val % 8 = 7)

/-- The output's window is idle except at a last column block, and written back exactly there. -/
theorem idle6_of_last (t : Fin cfg0.N) (h : IsLast t) : idle0 6 (grid0.coords t) = false := by
  show (!(k0_cond2 (grid0.coords t) == 1#1)) = false; rw [show (k0_cond2 (grid0.coords t) == 1#1) = true from beq_iff_eq.mpr h]; rfl
theorem idle6_of_not_last (t : Fin cfg0.N) (h : ¬ IsLast t) : idle0 6 (grid0.coords t) = true := by
  show (!(k0_cond2 (grid0.coords t) == 1#1)) = true; rw [show (k0_cond2 (grid0.coords t) == 1#1) = false from beq_eq_false_iff_ne.mpr h]; rfl
theorem idle_in0 (t : Fin cfg0.N) : idle0 0 (grid0.coords t) = false := rfl
theorem idle_in1 (t : Fin cfg0.N) : idle0 1 (grid0.coords t) = false := rfl
theorem idle_in2 (t : Fin cfg0.N) : idle0 2 (grid0.coords t) = false := rfl
theorem idle_in3 (t : Fin cfg0.N) : idle0 3 (grid0.coords t) = false := rfl
theorem idle_in4 (t : Fin cfg0.N) : idle0 4 (grid0.coords t) = false := rfl
theorem idle_in5 (t : Fin cfg0.N) : idle0 5 (grid0.coords t) = false := rfl
theorem flush6_of_last (t : Fin cfg0.N) (h : IsLast t) : (cfg0.win 6).flush t = true := (flush0_6 t).mpr ((isLast_iff t).mp h)
theorem flush6_of_not_last (t : Fin cfg0.N) (h : ¬ IsLast t) : (cfg0.win 6).flush t = false :=
  Bool.eq_false_iff.mpr fun hf => h ((isLast_iff t).mpr ((flush0_6 t).mp hf))

/-! ## What the staging buffers and the scratch columns hold -/

/-- Input window `w`'s block at point `t`, read off its array as the region finds it: what its staging buffer holds when
    the body runs, fetched at that point or carried over from an earlier one (the block index has then not moved). -/
def blk (c : Dev nD) (w : Fin cfg0.W) (t : Fin cfg0.N) : ((cfg0.win w).xblock (cfg0.grid.coords t)).Idx → Elt F (cfg0.win w).elt :=
  ((cfg0.win w).blk t).view.read (Elt F) (arrA m c w)

/-- The block's row maxima of the positive candidates, and row minima of the negative ones, at point `t`. -/
abbrev pMax (c : Dev nD) (t : Fin cfg0.N) : FVec F S1024x1 .f32 :=
  blkMax (blk m c 0 t) (blk m c 1 t) (blk m c 2 t) (blk m c 3 t) (blk m c 4 t) (blk m c 5 t)
abbrev pMin (c : Dev nD) (t : Fin cfg0.N) : FVec F S1024x1 .f32 :=
  blkMin (blk m c 0 t) (blk m c 1 t) (blk m c 2 t) (blk m c 3 t) (blk m c 4 t) (blk m c 5 t)

/-- The running maximum after point `k`: reset and folded at a first column block, folded at any other; -/
def accM (c : Dev nD) : (k : ℕ) → k < cfg0.N → Vec F S1024x1 .f32
  | 0, hk => firstM (pMax m c ⟨0, hk⟩)
  | k + 1, hk => if (k + 1) % 8 = 0 then firstM (pMax m c ⟨k + 1, hk⟩) else stepM (accM c k (Nat.lt_of_succ_lt hk)) (pMax m c ⟨k + 1, hk⟩)
/-- the running minimum likewise. -/
def accL (c : Dev nD) : (k : ℕ) → k < cfg0.N → Vec F S1024x1 .f32
  | 0, hk => firstL (pMin m c ⟨0, hk⟩)
  | k + 1, hk => if (k + 1) % 8 = 0 then firstL (pMin m c ⟨k + 1, hk⟩) else stepL (accL c k (Nat.lt_of_succ_lt hk)) (pMin m c ⟨k + 1, hk⟩)

theorem accM_first (c : Dev nD) (t : Fin cfg0.N) (h : t.val % 8 = 0) : accM m c t.val t.isLt = firstM (pMax m c t) := by
  obtain ⟨k, hk⟩ := t
  cases k with
  | zero => rfl
  | succ k => show (if (k + 1) % 8 = 0 then _ else _) = _; rw [if_pos h]
theorem accL_first (c : Dev nD) (t : Fin cfg0.N) (h : t.val % 8 = 0) : accL m c t.val t.isLt = firstL (pMin m c t) := by
  obtain ⟨k, hk⟩ := t
  cases k with
  | zero => rfl
  | succ k => show (if (k + 1) % 8 = 0 then _ else _) = _; rw [if_pos h]
theorem accM_step (c : Dev nD) (t : Fin cfg0.N) (h : t.val % 8 ≠ 0) (hp : t.val - 1 < cfg0.N) :
    accM m c t.val t.isLt = stepM (accM m c (t.val - 1) hp) (pMax m c t) := by
  obtain ⟨k, hk⟩ := t
  cases k with
  | zero => exact absurd rfl h
  | succ k => show (if (k + 1) % 8 = 0 then _ else _) = _; rw [if_neg h]; rfl
theorem accL_step (c : Dev nD) (t : Fin cfg0.N) (h : t.val % 8 ≠ 0) (hp : t.val - 1 < cfg0.N) :
    accL m c t.val t.isLt = stepL (accL m c (t.val - 1) hp) (pMin m c t) := by
  obtain ⟨k, hk⟩ := t
  cases k with
  | zero => exact absurd rfl h
  | succ k => show (if (k + 1) % 8 = 0 then _ else _) = _; rw [if_neg h]; rfl

/-- The scratch columns BEFORE point `t` at a point that is not a first column block: what the point before left. -/
abbrev prevM (c : Dev nD) (t : Fin cfg0.N) (h : t.val % 8 ≠ 0) : Vec F S1024x1 .f32 := accM m c (t.val - 1) (by have := t.isLt; omega)
abbrev prevL (c : Dev nD) (t : Fin cfg0.N) (h : t.val % 8 ≠ 0) : Vec F S1024x1 .f32 := accL m c (t.val - 1) (by have := t.isLt; omega)

/-! ## The proof data -/

/-- The invariant before point `k` (k = 0 … 64): the scratch columns at anything before a first column block and after the
    last point, else at what the point before left. -/
def scPart (c : Dev nD) (k : Fin (cfg0.N + 1)) : sProp 𝕄 :=
  if h : k.val % 8 = 0 then iprop((∃ a, owns (c : Thread nD τ) sc0 fullShare a) ∗ ∃ b, owns (c : Thread nD τ) sc1 fullShare b)
  else iprop(owns (c : Thread nD τ) sc0 fullShare (accM m c (k.val - 1) (by have := k.isLt; omega))
    ∗ owns (c : Thread nD τ) sc1 fullShare (accL m c (k.val - 1) (by have := k.isLt; omega)))

/-- The block a point leaves in the output's staging buffer — read only at a last column block. -/
def outAt (c : Dev nD) (t : Fin cfg0.N) : Vec F S1024x1 .f32 :=
  if h : t.val % 8 = 0 then k0_pay4 else outv (prevM m c t h) (prevL m c t h) (pMax m c t) (pMin m c t)

/-- The proof data on core `c`. The features array is lent to its two windows at the two halves of the full share. -/
def dats (_ : Fin 1) (c : Dev nD) : Dat τ (Elt F) Unit ℕ (UR sig nD τ) ℕ cfg0 c where
  A w := arrA m c w
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => outAt m c t
  Φ k := scPart m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

abbrev 𝒱₀ : Variants := Variants.none

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = outAt m c t := by dsimp only [dats]

/-- An input's staging buffer holds its block when the body runs, at every point: fetched there, or carried over unmoved. -/
theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; unfold Dat.blockOf blk; rfl) t d).trans
    (by unfold Dat.fetched Dat.blockOf blk; rfl)
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; unfold Dat.blockOf blk; rfl) t d).trans
    (by unfold Dat.fetched Dat.blockOf blk; rfl)
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; unfold Dat.blockOf blk; rfl) t d).trans
    (by unfold Dat.fetched Dat.blockOf blk; rfl)
theorem before_3 (c : Dev nD) (t : Fin cfg0.N) (d) : (dats m 0 c).before 3 t d = blk m c 3 t :=
  ((dats m 0 c).before_in_eq_fetched 3 rfl (fun _ => rfl) (fun _ _ _ => rfl) (fun t => by rw [after_3]; unfold Dat.blockOf blk; rfl) t d).trans
    (by unfold Dat.fetched Dat.blockOf blk; rfl)
theorem before_4 (c : Dev nD) (t : Fin cfg0.N) (d) : (dats m 0 c).before 4 t d = blk m c 4 t :=
  ((dats m 0 c).before_in_eq_fetched 4 rfl (fun _ => rfl) (fun _ _ _ => rfl) (fun t => by rw [after_4]; unfold Dat.blockOf blk; rfl) t d).trans
    (by unfold Dat.fetched Dat.blockOf blk; rfl)
theorem before_5 (c : Dev nD) (t : Fin cfg0.N) (d) : (dats m 0 c).before 5 t d = blk m c 5 t :=
  ((dats m 0 c).before_in_eq_fetched 5 rfl (fun _ => rfl) (fun _ _ _ => rfl) (fun t => by rw [after_5]; unfold Dat.blockOf blk; rfl) t d).trans
    (by unfold Dat.fetched Dat.blockOf blk; rfl)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 8 = 0) :
    (dats m 0 c).Φ t.castSucc = iprop((∃ a, owns (c : Thread nD τ) sc0 fullShare a) ∗ ∃ b, owns (c : Thread nD τ) sc1 fullShare b) := by
  show scPart m c _ = _; unfold scPart; rw [dif_pos (by exact h)]
theorem Φ_pre_other (c : Dev nD) (t : Fin cfg0.N) (h : t.val % 8 ≠ 0) :
    (dats m 0 c).Φ t.castSucc = iprop(owns (c : Thread nD τ) sc0 fullShare (prevM m c t h) ∗ owns (c : Thread nD τ) sc1 fullShare (prevL m c t h)) := by
  show scPart m c _ = _; unfold scPart; rw [dif_neg (by exact h)]; rfl
theorem Φ_post_last (c : Dev nD) (t : Fin cfg0.N) (h : t.val % 8 = 7) :
    (dats m 0 c).Φ t.succ = iprop((∃ a, owns (c : Thread nD τ) sc0 fullShare a) ∗ ∃ b, owns (c : Thread nD τ) sc1 fullShare b) := by
  show scPart m c _ = _; unfold scPart; rw [dif_pos (by show (t.val + 1) % 8 = 0; omega)]
theorem Φ_post_other (c : Dev nD) (t : Fin cfg0.N) (h : t.val % 8 ≠ 7) :
    (dats m 0 c).Φ t.succ = iprop(owns (c : Thread nD τ) sc0 fullShare (accM m c t.val t.isLt) ∗ owns (c : Thread nD τ) sc1 fullShare (accL m c t.val t.isLt)) := by
  show scPart m c _ = _; unfold scPart; rw [dif_neg (by show ¬ (t.val + 1) % 8 = 0; omega)]; rfl

/-- The body obligation at every point, by the point's kind: the run of that kind between the invariant's two forms;
    the output's staging buffer passed through at an idle point, at what the point stored at a last column block. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  by_cases hL : IsLast t
  · have h7 : t.val % 8 = 7 := (isLast_iff t).mp hL
    have hF : ¬ IsFirst t := fun h => by have := (isFirst_iff t).mp h; omega
    simp only [idle_in0, idle_in1, idle_in2, idle_in3, idle_in4, idle_in5, idle6_of_last t hL, flush6_of_last t hL,
      before_0, before_1, before_2, before_3, before_4, before_5, after_0, after_1, after_2, after_3, after_4, after_5, after_6]
    rw [Φ_pre_other m c t (by omega), Φ_post_last m c t h7,
      show outAt m c t = outv (prevM m c t (by omega)) (prevL m c t (by omega)) (pMax m c t) (pMin m c t) from dif_neg (by omega)]
    iintro ⟨⟨Ha, Hb⟩, ⟨%Wt, %hW, HO⟩, ⟨%d0, H0⟩, ⟨%d1, H1⟩, ⟨%d2, H2⟩, ⟨%d3, H3⟩, ⟨%d4, H4⟩, ⟨%d5, H5⟩, ⟨%d6, H6⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6))
      (blk m c 0 t) (blk m c 1 t) (blk m c 2 t) (blk m c 3 t) (blk m c 4 t) (blk m c 5 t) (prevM m c t (by omega)) (prevL m c t (by omega)) hF hL)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [Ha]; · iexact Ha
    isplitl [Hb]; · iexact Hb
    iintro ⟨⟨H0, H1, H2, H3, H4, H5⟩, H6, Ha, Hb⟩
    isplitl [Ha Hb]
    · isplitl [Ha]; · iexists _; iexact Ha
      iexists _; iexact Hb
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    iexact H6
  · simp only [idle_in0, idle_in1, idle_in2, idle_in3, idle_in4, idle_in5, idle6_of_not_last t hL, flush6_of_not_last t hL,
      before_0, before_1, before_2, before_3, before_4, before_5, after_0, after_1, after_2, after_3, after_4, after_5]
    by_cases hF : IsFirst t
    · have h0 : t.val % 8 = 0 := (isFirst_iff t).mp hF
      rw [Φ_pre_first m c t h0, Φ_post_other m c t (by omega), accM_first m c t h0, accL_first m c t h0]
      iintro ⟨⟨Ha, Hb⟩, ⟨%Wt, %hW, HO⟩, ⟨%d0, H0⟩, ⟨%d1, H1⟩, ⟨%d2, H2⟩, ⟨%d3, H3⟩, ⟨%d4, H4⟩, ⟨%d5, H5⟩, H6⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (st0_6 t) (hstage0_6 ((cfg0.slots t 6).cast nbuf0_6))
        (blk m c 0 t) (blk m c 1 t) (blk m c 2 t) (blk m c 3 t) (blk m c 4 t) (blk m c 5 t) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Ha]; · iexact Ha
      isplitl [Hb]; · iexact Hb
      iintro ⟨⟨H0, H1, H2, H3, H4, H5⟩, H6, Ha, Hb⟩
      isplitl [Ha Hb]
      · isplitl [Ha] <;> iassumption
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      iexact H6
    · have h1 : t.val % 8 ≠ 0 := fun h => hF ((isFirst_iff t).mpr h)
      have h2 : t.val % 8 ≠ 7 := fun h => hL ((isLast_iff t).mpr h)
      rw [Φ_pre_other m c t h1, Φ_post_other m c t h2, accM_step m c t h1 (by have := t.isLt; omega), accL_step m c t h1 (by have := t.isLt; omega)]
      iintro ⟨⟨Ha, Hb⟩, ⟨%Wt, %hW, HO⟩, ⟨%d0, H0⟩, ⟨%d1, H1⟩, ⟨%d2, H2⟩, ⟨%d3, H3⟩, ⟨%d4, H4⟩, ⟨%d5, H5⟩, H6⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (st0_6 t) (hstage0_6 ((cfg0.slots t 6).cast nbuf0_6))
        (blk m c 0 t) (blk m c 1 t) (blk m c 2 t) (blk m c 3 t) (blk m c 4 t) (blk m c 5 t) (prevM m c t h1) (prevL m c t h1) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Ha]; · iexact Ha
      isplitl [Hb]; · iexact Hb
      iintro ⟨⟨H0, H1, H2, H3, H4, H5⟩, H6, Ha, Hb⟩
      isplitl [Ha Hb]
      · isplitl [Ha] <;> iassumption
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      iexact H6

end Cert.Proof.KernelFrame

end
-- ==== Proof.KernelRun.lean ====
/-
  The run of @main: seven host operations, the kernel region, four host operations.

  @main is taken as three segments. The first host stretch computes the labels' column and row and the squared norms'
  column and row. The region's windows are seven, on SIX arrays: the features array is read by two windows (a row block
  and a column block of one array), so at the region's entry its buffer, held whole, is lent to the two windows at the
  two halves of the full share, and at the exit the halves — both still at the entry contents, the windows being inputs —
  are joined back. The second host stretch sums the output column and divides by the row count. The run's post: the
  result buffer at the second stretch's term of the output column the region left, and both arguments as launched.
-/
import proofs.«134578_j63556926046454_2_alg».proof.Proof.KernelData

noncomputable section

namespace Cert.Proof.KernelFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof's algebra is the pipeline library's alone. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays behind the windows, one by one -/

/-- The six distinct buffers behind the seven windows' arrays. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v4) ↦{fullShare} W main_v4)
          ∗ (((c : Thread nD τ).loc main_v5) ↦{fullShare} W main_v5) ∗ (((c : Thread nD τ).loc main_v0) ↦{fullShare} W main_v0)
          ∗ (((c : Thread nD τ).loc main_v1) ↦{fullShare} W main_v1) ∗ (((c : Thread nD τ).loc main_v6) ↦{fullShare} W main_v6)) := by
  unfold Pipeline.arrBufs
  exact bigSep_eq_bigSepL_of_eq [main_arg0, main_v4, main_v5, main_v0, main_v1, main_v6] (by decide) (by decide) _

/-- Each window's share of its array: the two halves for the two windows on the features array, the whole for the rest. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The pipeline's arrays at contents `G`, window by window, each at its share: the features array twice, at the two halves. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v4) ↦{fullShare} G 2) ∗ (((c : Thread nD τ).loc main_v5) ↦{fullShare} G 3)
          ∗ (((c : Thread nD τ).loc main_v0) ↦{fullShare} G 4) ∗ (((c : Thread nD τ).loc main_v1) ↦{fullShare} G 5)
          ∗ (((c : Thread nD τ).loc main_v6) ↦{fullShare} G 6)) := by
  unfold Dat.arrays
  rw [bigSep_W0]
  simp only [View.set_whole]
  rw [share_0, share_1, share_2, share_3, share_4, share_5, share_6]

/-- ENTRY: the six buffers held whole make the pipeline's arrays at the entry contents, the features array dealt in halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H4, H5, Hv0, Hv1, H6⟩
  ihave H0' := (pointsTo_share (PosShare.mem_left_op_right fullShare)).1 $$ H0
  icases H0' with ⟨Hl, Hr⟩
  isplitl [Hl]; · iexact Hl
  isplitl [Hr]; · iexact Hr
  isplitl [H4]; · iexact H4
  isplitl [H5]; · iexact H5
  isplitl [Hv0]; · iexact Hv0
  isplitl [Hv1]; · iexact Hv1
  iexact H6

/-! ## @main after the region -/

/-- Core `c`'s buffers when the region is left: as entered, but for the output column, at what the write-backs left. -/
def W₁ (c : Dev nD) : Valuation τ sig (Elt F) :=
  Function.update (StableHlo.after hostOps0 (V₀ m c)) (Proc.devRef .tc main_v6) ((dats m 0 c).arrAt 6 cfg0.N)
/-- and at the end: the four host operations have run. -/
abbrev Wₙ (c : Dev nD) : Valuation τ sig (Elt F) := StableHlo.after hostOps1 (W₁ m c)

theorem W₁_v6 (c : Dev nD) : W₁ m c (Proc.devRef .tc main_v6) = (dats m 0 c).arrAt 6 cfg0.N := by
  unfold W₁; exact Function.update_self ..
theorem W₁_of_ne (c : Dev nD) (b : Ref sig .tc) (h : b ≠ main_v6) : W₁ m c (Proc.devRef .tc b) = V m c b := by
  unfold W₁; exact Function.update_of_ne (StableHlo.devRef_ne_of_ne h) ..

/-- EXIT: the pipeline's arrays at their final contents make the six buffers held whole at the exit valuation — the inputs'
    arrays as entered (the two halves of the features array joined), the output column as the write-backs left it. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W₁ m c b) := by
  rw [arrBufs_eq, arrays_eq, W₁_v6, W₁_of_ne m c main_arg0 (by decide), W₁_of_ne m c main_v4 (by decide), W₁_of_ne m c main_v5 (by decide),
    W₁_of_ne m c main_v0 (by decide), W₁_of_ne m c main_v1 (by decide),
    (dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  iintro ⟨Hl, Hr, H4, H5, Hv0, Hv1, H6⟩
  ihave H0 := (pointsTo_share (PosShare.mem_left_op_right fullShare)).2 $$ [Hl Hr]
  · isplitl [Hl]; · iexact Hl
    iexact Hr
  isplitl [H0]; · iexact H0
  isplitl [H4]; · iexact H4
  isplitl [H5]; · iexact H5
  isplitl [Hv0]; · iexact Hv0
  isplitl [Hv1]; · iexact Hv1
  iexact H6

/-- The buffers that bypass the region are at the exit what they were at the entry. -/
theorem unscopedRest_exit (c : Dev nD) :
    (Pipeline.unscopedRest (Ix := Unit) (Name := ℕ) (U := UR sig nD τ) (Lvl := ℕ) spec0 c (fun b => W₁ m c b) : sProp 𝕄)
      = Pipeline.unscopedRest spec0 c (V m c) := by
  rw [unscopedRest0_eq, unscopedRest0_eq, W₁_of_ne m c main_arg1 (by decide), W₁_of_ne m c main_v2 (by decide), W₁_of_ne m c main_cst (by decide),
    W₁_of_ne m c main_v3 (by decide), W₁_of_ne m c main_cst_0 (by decide), W₁_of_ne m c main_v7 (by decide), W₁_of_ne m c main_cst_1 (by decide),
    W₁_of_ne m c main_v8 (by decide)]

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The kernel names no semaphore of its own. -/
abbrev osem : Fin 0 → SemLoc sig := fun k => k.elim0
theorem ownSemFacts : Pipeline.OwnSemFacts spec0 osem := by decide
omit [FloatOps F] in
theorem ownSems0_eq (c : Dev nD) :
    (Pipeline.ownSems0 (Ix := Unit) (Name := ℕ) (U := UR sig nD τ) (Lvl := ℕ) (Val := Elt F) (τ := τ) osem c : sProp 𝕄) = iprop(emp) :=
  Pipeline.ownSems0_eq_of_list c osem [] (by decide) (by decide)

/-- What rides beside the buffers through the host operations: the core's `owes`, at nothing. -/
abbrev R (c : Dev nD) : sProp 𝕄 := iprop(∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- THE FIRST HOST SEGMENT: seven operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m) R
/-- THE SECOND: four operations, from the exit valuation. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (W₁ m) R

theorem scPart_zero (c : Dev nD) : scPart m c 0 = iprop((∃ a, owns (c : Thread nD τ) sc0 fullShare a) ∗ ∃ b, owns (c : Thread nD τ) sc1 fullShare b) := by
  unfold scPart; exact dif_pos (by decide)
theorem scPart_last (c : Dev nD) : scPart m c (Fin.last cfg0.N) = iprop((∃ a, owns (c : Thread nD τ) sc0 fullShare a) ∗ ∃ b, owns (c : Thread nD τ) sc1 fullShare b) := by
  unfold scPart; exact dif_pos (by decide)

set_option backward.isDefEq.respectTransparency.types false in
/-- THE REGION, entered from what the first segment left and left for the second. -/
def reg0 : Pipeline.RegionSeg (pcfgs (F := F)) adm (dats m) () defs₀ 𝒱₀ L lv 0 where
  win := winFacts₀0
  block_pos := block_pos0
  stage_whole := stage_whole0
  K := Fin 0
  osem := osem
  ho := ownSemFacts
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X _ := iprop(emp)
  Y _ := iprop(emp)
  Z c := Pipeline.unscopedRest spec0 c (V m c)
  hentry c := by
    rw [show StableHlo.held (c : Thread nD τ) (Pipeline.ucRefs τ sig) (StableHlo.after hostOps0 (V₀ m c)) = unscopedBufs c (V m c)
        from (Pipeline.unscopedBufs_held c _).symm,
      Pipeline.unscopedBufs_split₀ cfgs 0 winFacts₀0.arr_unscoped c (V m c)]
    iintro ⟨⟨⟨Hab, Hrest⟩, HO⟩, -, -⟩
    ihave Ha := (arrays_of_arrBufs m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = scPart m c 0 from rfl, scPart_zero, scopedRest0_eq]
    iintro ⟨-, -, ⟨%f0, H0⟩, ⟨%f1, H1⟩⟩
    isplitl [H0]
    · iexists f0; rw [owns_whole_eq]; iexists f0; isplitr; (· ipureintro; rfl); iexact H0
    · iexists f1; rw [owns_whole_eq]; iexists f1; isplitr; (· ipureintro; rfl); iexact H1
  hout c := by
    rw [ownSems0_eq, show (dats m 0 c).Φ (Fin.last cfg0.N) = scPart m c (Fin.last cfg0.N) from rfl, scPart_last, scopedRest0_eq]
    simp only [owns_whole_eq]
    iintro ⟨⟨%a, %f0, %hf0, H0⟩, ⟨%b, %f1, %hf1, H1⟩⟩
    isplitr; · iempintro
    isplitr; · iempintro
    isplitl [H0]; · iexists f0; iexact H0
    iexists f1; iexact H1
  hexit c := by
    rw [show StableHlo.held (c : Thread nD τ) (Pipeline.ucRefs τ sig) (W₁ m c) = unscopedBufs c (fun b => W₁ m c b)
        from (Pipeline.unscopedBufs_held c _).symm,
      Pipeline.unscopedBufs_split₀ cfgs 0 winFacts₀0.arr_unscoped c (fun b => W₁ m c b), unscopedRest_exit]
    iintro ⟨Ha, HO, -, HZ⟩
    ihave Hb := (arrBufs_of_arrays m c) $$ Ha
    imodintro
    isplitr [HO]
    · isplitl [Hb]; · iexact Hb
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- No host operation of the first stretch writes an argument; none of the second does either. -/
theorem not_written0 (b : Ref sig .tc) (hb : b ≠ main_v0 ∧ b ≠ main_v1 ∧ b ≠ main_v2 ∧ b ≠ main_cst ∧ b ≠ main_v3 ∧ b ≠ main_v4 ∧ b ≠ main_v5) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.reshape_writes, StableHlo.binary_writes, StableHlo.nullary_writes, Finset.mem_singleton] <;>
    exact StableHlo.devRef_ne_of_ne ‹_›
theorem not_written1 (b : Ref sig .tc) (hb : b ≠ main_cst_0 ∧ b ≠ main_v7 ∧ b ≠ main_cst_1 ∧ b ≠ main_v8) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.binary_writes, StableHlo.nullary_writes, Finset.mem_singleton] <;>
    exact StableHlo.devRef_ne_of_ne ‹_›

/-- The arguments reach the end as launched. -/
theorem Wₙ_arg0 (c : Dev nD) : Wₙ m c (Proc.devRef .tc main_arg0) = m ((c : Thread nD τ).loc main_arg0) :=
  (StableHlo.after_of_forall_not_mem hostOps1 (W₁ m c) (not_written1 main_arg0 (by decide))).trans
    ((W₁_of_ne m c main_arg0 (by decide)).trans
      (StableHlo.after_of_forall_not_mem (b := Proc.devRef .tc main_arg0) hostOps0 (V₀ m c) (not_written0 main_arg0 (by decide))))
theorem Wₙ_arg1 (c : Dev nD) : Wₙ m c (Proc.devRef .tc main_arg1) = m ((c : Thread nD τ).loc main_arg1) :=
  (StableHlo.after_of_forall_not_mem hostOps1 (W₁ m c) (not_written1 main_arg1 (by decide))).trans
    ((W₁_of_ne m c main_arg1 (by decide)).trans
      (StableHlo.after_of_forall_not_mem (b := Proc.devRef .tc main_arg1) hostOps0 (V₀ m c) (not_written0 main_arg1 (by decide))))

/-- The physical post: the result at the second stretch's term, both arguments as launched. -/
def QC : PUnit × MemSt nD τ sig (Elt F) → Prop := fun r =>
  ∀ c : Dev nD, r.2.mem ((c : Thread nD τ).loc main_v8) = Wₙ m c (Proc.devRef .tc main_v8)
    ∧ r.2.mem ((c : Thread nD τ).loc main_arg0) = m ((c : Thread nD τ).loc main_arg0)
    ∧ r.2.mem ((c : Thread nD τ).loc main_arg1) = m ((c : Thread nD τ).loc main_arg1)

theorem mem_ucRefs (b : Ref sig .tc) (h : b.isScoped = false) : (Proc.devRef .tc b : DevRef τ sig) ∈ Pipeline.ucRefs τ sig := by
  unfold Pipeline.ucRefs StableHlo.tcRefs
  refine Finset.mem_filter.mpr ⟨Finset.mem_map.mpr ⟨b, Finset.mem_univ _, rfl⟩, ?_⟩
  intro h'; exact Bool.false_ne_true (h.symm.trans h')

set_option backward.isDefEq.respectTransparency.types false in
/-- At the compiled mesh, for any float values, from any memory with zero counters: every weakly fair execution of @main on
    the TensorCores terminates, and every final state has the result at the computed term and the arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wₙ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v8) = Wₙ m c (Proc.devRef .tc main_v8)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (Wₙ m c) s') $$ [Hh HSI]
      · isplitl [Hh]; · iexact Hh
        iexact HSI
      icases Hr with ⟨%hr, HSI⟩
      imodintro
      isplitr
      · ipureintro
        exact ⟨hr _ (mem_ucRefs main_v8 rfl), (hr _ (mem_ucRefs main_arg0 rfl)).trans (Wₙ_arg0 m c), (hr _ (mem_ucRefs main_arg1 rfl)).trans (Wₙ_arg1 m c)⟩
      iexact HSI)
    (hQ := fun _ h => h)

end Cert.Proof.KernelFrame

end
-- ==== Proof.KernelIdealBody.lean ====
/-
  The kernel body at a SYMBOLIC grid point. The grid is (8 row blocks) × (8 column blocks), the column axis innermost.
  At point (i, j) the body: if j = 0 resets the two scratch columns to −∞ and +∞; loads the row block and the column
  block of the features, of the squared norms and of the labels; forms the block's row maxima of the positive
  candidates and row minima of the negative candidates; folds them into the scratch columns (max into the first, min
  into the second); and if j = 7 stores max (first − second + 1) 0 into the output's staging buffer, which it leaves
  alone at every other j. Three runs, one per kind of point (first / middle / last column block), each from the six
  input buffers at given blocks and the scratch columns at given contents, to the contents the stores leave, read as
  the canonical overlay of the stored pieces.
-/
import proofs.«134578_j63556926046454_2_alg».proof.Proof.Gen.KernelIdeal
import proofs.«134578_j63556926046454_2_alg».proof.Proof.Gen.KernelIdeal.Skeleton
import proofs.«134578_j63556926046454_2_alg».proof.Proof.Gen.KernelIdeal.Launch
import proofs.«134578_j63556926046454_2_alg».proof.Proof.Gen.KernelIdeal.Points
import Idealize.ShloMosaic.Lib.Writes
import Idealize.ShloMosaic.Lib.Pipeline.FrameBody
import Idealize.ShloMosaic.Lib.Tactic

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two scratch columns, whole. -/
abbrev sc0 : Memref sig .tc .vmem S1024x1 .f32 := Memref.whole cc0_scratch0
abbrev sc1 : Memref sig .tc .vmem S1024x1 .f32 := Memref.whole cc0_scratch1
/-- The rectangles every access goes through: each block whole, at zero offsets. -/
abbrev rC : Rect S1024x1 := Rect.unit (s := S1024x1) ![0, 0] S1024x1.size inb_S1024x1_S1024x1_0_0
abbrev rA : Rect S1024x128 := Rect.unit (s := S1024x128) ![0, 0] S1024x128.size inb_S1024x128_S1024x128_0_0
abbrev rR : Rect S1x1024 := Rect.unit (s := S1x1024) ![0, 0] S1x1024.size inb_S1x1024_S1x1024_0_0

/-- The branch conditions at point `t`: "j = 0" as the body computes it, "j = 7" as the program names it. -/
abbrev IsFirst (t : Fin cfg0.N) : Prop := Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

/-- The block's row maxima of the positive candidates and row minima of the negative ones, of the six input blocks. -/
abbrev blkMax (x0 x1 : Vec F S1024x128 .f32) (x2 : Vec F S1024x1 .f32) (x3 : Vec F S1x1024 .f32) (x4 : Vec F S1024x1 .i32) (x5 : Vec F S1x1024 .i32) : FVec F S1024x1 .f32 :=
  k0_pay8 (View.ld x0 rA) (View.ld x1 rA) (View.ld x2 rC) (View.ld x3 rR) (View.ld x4 rC) (View.ld x5 rR)
abbrev blkMin (x0 x1 : Vec F S1024x128 .f32) (x2 : Vec F S1024x1 .f32) (x3 : Vec F S1x1024 .f32) (x4 : Vec F S1024x1 .i32) (x5 : Vec F S1x1024 .i32) : FVec F S1024x1 .f32 :=
  k0_pay9 (View.ld x0 rA) (View.ld x1 rA) (View.ld x2 rC) (View.ld x3 rR) (View.ld x4 rC) (View.ld x5 rR)

/-- The running maximum after a later column block: its contents folded with the block's maxima; -/
abbrev stepM (a : Vec F S1024x1 .f32) (p : FVec F S1024x1 .f32) : Vec F S1024x1 .f32 := View.canon [⟨rC, k0_pay1 p (View.ld a rC)⟩]
/-- the running minimum likewise. -/
abbrev stepL (b : Vec F S1024x1 .f32) (p : FVec F S1024x1 .f32) : Vec F S1024x1 .f32 := View.canon [⟨rC, k0_pay2 p (View.ld b rC)⟩]
/-- After a first column block: reset to −∞ (to +∞), read back, folded with the block's maxima (minima). -/
abbrev firstM (p : FVec F S1024x1 .f32) : Vec F S1024x1 .f32 :=
  View.canon [⟨rC, k0_pay1 p (sc0.view.readCov [⟨rC, k0_pay4 (F := F)⟩] rC.toLoadRect)⟩, ⟨rC, k0_pay4 (F := F)⟩]
abbrev firstL (p : FVec F S1024x1 .f32) : Vec F S1024x1 .f32 :=
  View.canon [⟨rC, k0_pay2 p (sc1.view.readCov [⟨rC, k0_pay5 (F := F)⟩] rC.toLoadRect)⟩, ⟨rC, k0_pay5 (F := F)⟩]
/-- The output block a last column block stores: the two scratch columns read back through their last stores. -/
abbrev outv (a b : Vec F S1024x1 .f32) (p q : FVec F S1024x1 .f32) : Vec F S1024x1 .f32 :=
  View.canon [⟨rC, k0_pay3 (sc0.view.readCov [⟨rC, k0_pay1 p (View.ld a rC)⟩] rC.toLoadRect) (sc1.view.readCov [⟨rC, k0_pay2 q (View.ld b rC)⟩] rC.toLoadRect)⟩]

omit [FloatOps F] in
theorem cover1 (p : Vec F S1024x1 .f32) (y : S1024x1.Idx) : ∃ pc ∈ ([⟨rC, p⟩] : List (View.Piece (Elt F) S1024x1 .f32)), y ∈ pc.1.set :=
  View.cover_of_tiled [⟨rC, p⟩] S1024x1.size (by rfl) y
omit [FloatOps F] in
theorem cover2 (p q : Vec F S1024x1 .f32) (y : S1024x1.Idx) : ∃ pc ∈ ([⟨rC, p⟩, ⟨rC, q⟩] : List (View.Piece (Elt F) S1024x1 .f32)), y ∈ pc.1.set :=
  View.cover_of_tiled [⟨rC, p⟩, ⟨rC, q⟩] S1024x1.size (by rfl) y

section Runs

variable (c : Dev nD) (t : Fin cfg0.N)
  (M0 : Memref sig .tc .vmem S1024x128 .f32) (h0 : M0.IsWhole) (M1 : Memref sig .tc .vmem S1024x128 .f32) (h1 : M1.IsWhole)
  (M2 : Memref sig .tc .vmem S1024x1 .f32) (h2 : M2.IsWhole) (M3 : Memref sig .tc .vmem S1x1024 .f32) (h3 : M3.IsWhole)
  (M4 : Memref sig .tc .vmem S1024x1 .i32) (h4 : M4.IsWhole) (M5 : Memref sig .tc .vmem S1x1024 .i32) (h5 : M5.IsWhole)
  (M6 : Memref sig .tc .vmem S1024x1 .f32) (h6 : M6.IsWhole)
  (x0 x1 : Vec F S1024x128 .f32) (x2 : Vec F S1024x1 .f32) (x3 : Vec F S1x1024 .f32) (x4 : Vec F S1024x1 .i32) (x5 : Vec F S1x1024 .i32)
  (a b : Vec F S1024x1 .f32)

local notation "BODY" => cc0__triplet_kernel (grid0.coords t) M0 h0 M1 h1 M2 h2 M3 h3 M4 h4 M5 h5 M6 h6 (Memref.whole cc0_scratch0) (Memref.isWhole_whole _) (Memref.whole cc0_scratch1) (Memref.isWhole_whole _)

/-- The six input buffers at their blocks: what every run takes and gives back untouched. -/
abbrev ins : sProp 𝕄 :=
  iprop(owns (c : Thread nD τ) M0 fullShare x0 ∗ owns (c : Thread nD τ) M1 fullShare x1 ∗ owns (c : Thread nD τ) M2 fullShare x2
    ∗ owns (c : Thread nD τ) M3 fullShare x3 ∗ owns (c : Thread nD τ) M4 fullShare x4 ∗ owns (c : Thread nD τ) M5 fullShare x5)

/-- A first column block (j = 0): the scratch columns, whatever they held, end at `firstM` / `firstL` of the block's maxima and
    minima; the output's buffer is untouched. -/
theorem run_first (hF : IsFirst t) (hL : ¬ IsLast t) (O : sProp 𝕄) (Q : PUnit → sProp 𝕄) :
    iprop(ins c M0 M1 M2 M3 M4 M5 x0 x1 x2 x3 x4 x5 ∗ O
      ∗ (∃ a, owns (c : Thread nD τ) sc0 fullShare a) ∗ (∃ b, owns (c : Thread nD τ) sc1 fullShare b)
      ∗ (iprop(ins c M0 M1 M2 M3 M4 M5 x0 x1 x2 x3 x4 x5 ∗ O
          ∗ owns (c : Thread nD τ) sc0 fullShare (firstM (blkMax x0 x1 x2 x3 x4 x5))
          ∗ owns (c : Thread nD τ) sc1 fullShare (firstL (blkMin x0 x1 x2 x3 x4 x5))) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, HO, ⟨%a', %fa, %hfa, Ha⟩, ⟨%b', %fb, %hfb, Hb⟩, Hk⟩
  subst hf0 hf1 hf2 hf3 hf4 hf5
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [HO]; · iexact HO
  isplitl [Ha]
  · iexists _; isplitr; swap; (· iexact Ha); ipureintro; exact View.read_writes_eq_canon _ _ _ (cover2 _ _)
  · iexists _; isplitr; swap; (· iexact Hb); ipureintro; exact View.read_writes_eq_canon _ _ _ (cover2 _ _)

/-- A middle column block: the scratch columns at `a`, `b` end at `stepM a`, `stepL b` of the block's maxima and minima; the
    output's buffer is untouched. -/
theorem run_mid (hF : ¬ IsFirst t) (hL : ¬ IsLast t) (O : sProp 𝕄) (Q : PUnit → sProp 𝕄) :
    iprop(ins c M0 M1 M2 M3 M4 M5 x0 x1 x2 x3 x4 x5 ∗ O
      ∗ owns (c : Thread nD τ) sc0 fullShare a ∗ owns (c : Thread nD τ) sc1 fullShare b
      ∗ (iprop(ins c M0 M1 M2 M3 M4 M5 x0 x1 x2 x3 x4 x5 ∗ O
          ∗ owns (c : Thread nD τ) sc0 fullShare (stepM a (blkMax x0 x1 x2 x3 x4 x5))
          ∗ owns (c : Thread nD τ) sc1 fullShare (stepL b (blkMin x0 x1 x2 x3 x4 x5))) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, HO, ⟨%fa, %hfa, Ha⟩, ⟨%fb, %hfb, Hb⟩, Hk⟩
  subst hf0 hf1 hf2 hf3 hf4 hf5 hfa hfb
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [HO]; · iexact HO
  isplitl [Ha]
  · iexists _; isplitr; swap; (· iexact Ha); ipureintro; exact View.read_writes_eq_canon _ _ _ (cover1 _)
  · iexists _; isplitr; swap; (· iexact Hb); ipureintro; exact View.read_writes_eq_canon _ _ _ (cover1 _)

/-- A last column block (j = 7): the scratch columns end as at a middle one, and the output's buffer, whatever it held, at
    `outv`. -/
theorem run_last (hF : ¬ IsFirst t) (hL : IsLast t) (Q : PUnit → sProp 𝕄) :
    iprop(ins c M0 M1 M2 M3 M4 M5 x0 x1 x2 x3 x4 x5 ∗ (∃ d, owns (c : Thread nD τ) M6 fullShare d)
      ∗ owns (c : Thread nD τ) sc0 fullShare a ∗ owns (c : Thread nD τ) sc1 fullShare b
      ∗ (iprop(ins c M0 M1 M2 M3 M4 M5 x0 x1 x2 x3 x4 x5
          ∗ owns (c : Thread nD τ) M6 fullShare (outv a b (blkMax x0 x1 x2 x3 x4 x5) (blkMin x0 x1 x2 x3 x4 x5))
          ∗ owns (c : Thread nD τ) sc0 fullShare (stepM a (blkMax x0 x1 x2 x3 x4 x5))
          ∗ owns (c : Thread nD τ) sc1 fullShare (stepL b (blkMin x0 x1 x2 x3 x4 x5))) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%fa, %hfa, Ha⟩, ⟨%fb, %hfb, Hb⟩, Hk⟩
  subst hf0 hf1 hf2 hf3 hf4 hf5 hfa hfb
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro; exact View.read_writes_eq_canon _ _ _ (cover1 _)
  isplitl [Ha]
  · iexists _; isplitr; swap; (· iexact Ha); ipureintro; exact View.read_writes_eq_canon _ _ _ (cover1 _)
  · iexists _; isplitr; swap; (· iexact Hb); ipureintro; exact View.read_writes_eq_canon _ _ _ (cover1 _)

end Runs

end Cert.Proof.KernelIdealFrame

end
-- ==== Proof.KernelIdealData.lean ====
/-
  The pipeline's proof data and the body obligation at every grid point.

  Before the region @main computes, on the host, the labels as a column and as a row, the squared norms as a column and
  as a row; the region's seven windows are: the features' row block and column block (TWO windows on ONE array), the
  norms' column block and row block, the labels' column block and row block, and the output column's row block. The six
  inputs are only read, so each staging buffer holds, at every point, the block last fetched into it. The two scratch
  columns carry the running maximum and minimum along a row block's eight column blocks: anything before the first,
  then what each point leaves, by recursion on the point. The output's staging buffer is stored at a row block's last
  column block only, and written back there.
-/
import proofs.«134578_j63556926046454_2_alg».proof.Proof.KernelIdealBody
import Idealize.ShloMosaic.Lib.Pipeline.Regions
import Idealize.ShloMosaic.Lib.Pipeline.Frame

noncomputable section

namespace Cert.Proof.KernelIdealFrame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf heldIn)

variable {F : FTy → Type} [FloatOps F]

local notation "𝕄" => MT nD τ sig Unit (Elt F) ℕ (UR sig nD τ) ℕ

variable (m : (ℓ : Loc nD τ sig) → Buf (Elt F) ℓ)

/-! ## @main before the region -/

/-- Core `c`'s buffers at launch, as the host operations' valuation; -/
abbrev V₀ (c : Dev nD) : Valuation τ sig (Elt F) := fun b => m ((c : Dev nD), b)
/-- and when the region is entered: the seven host operations have run. -/
abbrev V (c : Dev nD) (b : Ref sig .tc) : Buf (Elt F) ((c : Thread nD τ).loc b) := StableHlo.after hostOps0 (V₀ m c) b
/-- Each window's array at the region's entry. -/
abbrev arrA (c : Dev nD) (w : Fin cfg0.W) : Buf (Elt F) ((cfg0.win w).arr.view.loc (c : Thread nD τ)) := V m c (Pipeline.arrRef spec0 w)

/-! ## The kinds of point -/

/-- A point is a row block's first column block iff its number is ≡ 0 (mod 8), its last iff ≡ 7. -/
theorem isFirst_iff : ∀ t : Fin cfg0.N, IsFirst t ↔ t.val % 8 = 0 :=
  (by decide +kernel : ∀ t : Fin grid0.N, (Scalar.cmpi .ne (Scalar.extui (Scalar.cmpi .eq (BitVec.ofNat 32 ((grid0.coords t) 1).val) 0#32)) 0#32 = 1#1) ↔ t.val % 8 = 0)
theorem isLast_iff : ∀ t : Fin cfg0.N, IsLast t ↔ t.val % 8 = 7 :=
  (by decide +kernel : ∀ t : Fin grid0.N, k0_cond2 (grid0.coords t) = 1#1 ↔ t.val % 8 = 7)

/-- The output's window is idle except at a last column block, and written back exactly there. -/
theorem idle6_of_last (t : Fin cfg0.N) (h : IsLast t) : idle0 6 (grid0.coords t) = false := by
  show (!(k0_cond2 (grid0.coords t) == 1#1)) = false; rw [show (k0_cond2 (grid0.coords t) == 1#1) = true from beq_iff_eq.mpr h]; rfl
theorem idle6_of_not_last (t : Fin cfg0.N) (h : ¬ IsLast t) : idle0 6 (grid0.coords t) = true := by
  show (!(k0_cond2 (grid0.coords t) == 1#1)) = true; rw [show (k0_cond2 (grid0.coords t) == 1#1) = false from beq_eq_false_iff_ne.mpr h]; rfl
theorem idle_in0 (t : Fin cfg0.N) : idle0 0 (grid0.coords t) = false := rfl
theorem idle_in1 (t : Fin cfg0.N) : idle0 1 (grid0.coords t) = false := rfl
theorem idle_in2 (t : Fin cfg0.N) : idle0 2 (grid0.coords t) = false := rfl
theorem idle_in3 (t : Fin cfg0.N) : idle0 3 (grid0.coords t) = false := rfl
theorem idle_in4 (t : Fin cfg0.N) : idle0 4 (grid0.coords t) = false := rfl
theorem idle_in5 (t : Fin cfg0.N) : idle0 5 (grid0.coords t) = false := rfl
theorem flush6_of_last (t : Fin cfg0.N) (h : IsLast t) : (cfg0.win 6).flush t = true := (flush0_6 t).mpr ((isLast_iff t).mp h)
theorem flush6_of_not_last (t : Fin cfg0.N) (h : ¬ IsLast t) : (cfg0.win 6).flush t = false :=
  Bool.eq_false_iff.mpr fun hf => h ((isLast_iff t).mpr ((flush0_6 t).mp hf))

/-! ## What the staging buffers and the scratch columns hold -/

/-- Input window `w`'s block at point `t`, read off its array as the region finds it: what its staging buffer holds when
    the body runs, fetched at that point or carried over from an earlier one (the block index has then not moved). -/
def blk (c : Dev nD) (w : Fin cfg0.W) (t : Fin cfg0.N) : ((cfg0.win w).xblock (cfg0.grid.coords t)).Idx → Elt F (cfg0.win w).elt :=
  ((cfg0.win w).blk t).view.read (Elt F) (arrA m c w)

/-- The block's row maxima of the positive candidates, and row minima of the negative ones, at point `t`. -/
abbrev pMax (c : Dev nD) (t : Fin cfg0.N) : FVec F S1024x1 .f32 :=
  blkMax (blk m c 0 t) (blk m c 1 t) (blk m c 2 t) (blk m c 3 t) (blk m c 4 t) (blk m c 5 t)
abbrev pMin (c : Dev nD) (t : Fin cfg0.N) : FVec F S1024x1 .f32 :=
  blkMin (blk m c 0 t) (blk m c 1 t) (blk m c 2 t) (blk m c 3 t) (blk m c 4 t) (blk m c 5 t)

/-- The running maximum after point `k`: reset and folded at a first column block, folded at any other; -/
def accM (c : Dev nD) : (k : ℕ) → k < cfg0.N → Vec F S1024x1 .f32
  | 0, hk => firstM (pMax m c ⟨0, hk⟩)
  | k + 1, hk => if (k + 1) % 8 = 0 then firstM (pMax m c ⟨k + 1, hk⟩) else stepM (accM c k (Nat.lt_of_succ_lt hk)) (pMax m c ⟨k + 1, hk⟩)
/-- the running minimum likewise. -/
def accL (c : Dev nD) : (k : ℕ) → k < cfg0.N → Vec F S1024x1 .f32
  | 0, hk => firstL (pMin m c ⟨0, hk⟩)
  | k + 1, hk => if (k + 1) % 8 = 0 then firstL (pMin m c ⟨k + 1, hk⟩) else stepL (accL c k (Nat.lt_of_succ_lt hk)) (pMin m c ⟨k + 1, hk⟩)

theorem accM_first (c : Dev nD) (t : Fin cfg0.N) (h : t.val % 8 = 0) : accM m c t.val t.isLt = firstM (pMax m c t) := by
  obtain ⟨k, hk⟩ := t
  cases k with
  | zero => rfl
  | succ k => show (if (k + 1) % 8 = 0 then _ else _) = _; rw [if_pos h]
theorem accL_first (c : Dev nD) (t : Fin cfg0.N) (h : t.val % 8 = 0) : accL m c t.val t.isLt = firstL (pMin m c t) := by
  obtain ⟨k, hk⟩ := t
  cases k with
  | zero => rfl
  | succ k => show (if (k + 1) % 8 = 0 then _ else _) = _; rw [if_pos h]
theorem accM_step (c : Dev nD) (t : Fin cfg0.N) (h : t.val % 8 ≠ 0) (hp : t.val - 1 < cfg0.N) :
    accM m c t.val t.isLt = stepM (accM m c (t.val - 1) hp) (pMax m c t) := by
  obtain ⟨k, hk⟩ := t
  cases k with
  | zero => exact absurd rfl h
  | succ k => show (if (k + 1) % 8 = 0 then _ else _) = _; rw [if_neg h]; rfl
theorem accL_step (c : Dev nD) (t : Fin cfg0.N) (h : t.val % 8 ≠ 0) (hp : t.val - 1 < cfg0.N) :
    accL m c t.val t.isLt = stepL (accL m c (t.val - 1) hp) (pMin m c t) := by
  obtain ⟨k, hk⟩ := t
  cases k with
  | zero => exact absurd rfl h
  | succ k => show (if (k + 1) % 8 = 0 then _ else _) = _; rw [if_neg h]; rfl

/-- The scratch columns BEFORE point `t` at a point that is not a first column block: what the point before left. -/
abbrev prevM (c : Dev nD) (t : Fin cfg0.N) (h : t.val % 8 ≠ 0) : Vec F S1024x1 .f32 := accM m c (t.val - 1) (by have := t.isLt; omega)
abbrev prevL (c : Dev nD) (t : Fin cfg0.N) (h : t.val % 8 ≠ 0) : Vec F S1024x1 .f32 := accL m c (t.val - 1) (by have := t.isLt; omega)

/-! ## The proof data -/

/-- The invariant before point `k` (k = 0 … 64): the scratch columns at anything before a first column block and after the
    last point, else at what the point before left. -/
def scPart (c : Dev nD) (k : Fin (cfg0.N + 1)) : sProp 𝕄 :=
  if h : k.val % 8 = 0 then iprop((∃ a, owns (c : Thread nD τ) sc0 fullShare a) ∗ ∃ b, owns (c : Thread nD τ) sc1 fullShare b)
  else iprop(owns (c : Thread nD τ) sc0 fullShare (accM m c (k.val - 1) (by have := k.isLt; omega))
    ∗ owns (c : Thread nD τ) sc1 fullShare (accL m c (k.val - 1) (by have := k.isLt; omega)))

/-- The block a point leaves in the output's staging buffer — read only at a last column block. -/
def outAt (c : Dev nD) (t : Fin cfg0.N) : Vec F S1024x1 .f32 :=
  if h : t.val % 8 = 0 then k0_pay4 else outv (prevM m c t h) (prevL m c t h) (pMax m c t) (pMin m c t)

/-- The proof data on core `c`. The features array is lent to its two windows at the two halves of the full share. -/
def dats (_ : Fin 1) (c : Dev nD) : Dat τ (Elt F) Unit ℕ (UR sig nD τ) ℕ cfg0 c where
  A w := arrA m c w
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => outAt m c t
  Φ k := scPart m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

abbrev 𝒱₀ : Variants := Variants.none

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = outAt m c t := by dsimp only [dats]

/-- An input's staging buffer holds its block when the body runs, at every point: fetched there, or carried over unmoved. -/
theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; unfold Dat.blockOf blk; rfl) t d).trans
    (by unfold Dat.fetched Dat.blockOf blk; rfl)
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; unfold Dat.blockOf blk; rfl) t d).trans
    (by unfold Dat.fetched Dat.blockOf blk; rfl)
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; unfold Dat.blockOf blk; rfl) t d).trans
    (by unfold Dat.fetched Dat.blockOf blk; rfl)
theorem before_3 (c : Dev nD) (t : Fin cfg0.N) (d) : (dats m 0 c).before 3 t d = blk m c 3 t :=
  ((dats m 0 c).before_in_eq_fetched 3 rfl (fun _ => rfl) (fun _ _ _ => rfl) (fun t => by rw [after_3]; unfold Dat.blockOf blk; rfl) t d).trans
    (by unfold Dat.fetched Dat.blockOf blk; rfl)
theorem before_4 (c : Dev nD) (t : Fin cfg0.N) (d) : (dats m 0 c).before 4 t d = blk m c 4 t :=
  ((dats m 0 c).before_in_eq_fetched 4 rfl (fun _ => rfl) (fun _ _ _ => rfl) (fun t => by rw [after_4]; unfold Dat.blockOf blk; rfl) t d).trans
    (by unfold Dat.fetched Dat.blockOf blk; rfl)
theorem before_5 (c : Dev nD) (t : Fin cfg0.N) (d) : (dats m 0 c).before 5 t d = blk m c 5 t :=
  ((dats m 0 c).before_in_eq_fetched 5 rfl (fun _ => rfl) (fun _ _ _ => rfl) (fun t => by rw [after_5]; unfold Dat.blockOf blk; rfl) t d).trans
    (by unfold Dat.fetched Dat.blockOf blk; rfl)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 8 = 0) :
    (dats m 0 c).Φ t.castSucc = iprop((∃ a, owns (c : Thread nD τ) sc0 fullShare a) ∗ ∃ b, owns (c : Thread nD τ) sc1 fullShare b) := by
  show scPart m c _ = _; unfold scPart; rw [dif_pos (by exact h)]
theorem Φ_pre_other (c : Dev nD) (t : Fin cfg0.N) (h : t.val % 8 ≠ 0) :
    (dats m 0 c).Φ t.castSucc = iprop(owns (c : Thread nD τ) sc0 fullShare (prevM m c t h) ∗ owns (c : Thread nD τ) sc1 fullShare (prevL m c t h)) := by
  show scPart m c _ = _; unfold scPart; rw [dif_neg (by exact h)]; rfl
theorem Φ_post_last (c : Dev nD) (t : Fin cfg0.N) (h : t.val % 8 = 7) :
    (dats m 0 c).Φ t.succ = iprop((∃ a, owns (c : Thread nD τ) sc0 fullShare a) ∗ ∃ b, owns (c : Thread nD τ) sc1 fullShare b) := by
  show scPart m c _ = _; unfold scPart; rw [dif_pos (by show (t.val + 1) % 8 = 0; omega)]
theorem Φ_post_other (c : Dev nD) (t : Fin cfg0.N) (h : t.val % 8 ≠ 7) :
    (dats m 0 c).Φ t.succ = iprop(owns (c : Thread nD τ) sc0 fullShare (accM m c t.val t.isLt) ∗ owns (c : Thread nD τ) sc1 fullShare (accL m c t.val t.isLt)) := by
  show scPart m c _ = _; unfold scPart; rw [dif_neg (by show ¬ (t.val + 1) % 8 = 0; omega)]; rfl

/-- The body obligation at every point, by the point's kind: the run of that kind between the invariant's two forms;
    the output's staging buffer passed through at an idle point, at what the point stored at a last column block. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  by_cases hL : IsLast t
  · have h7 : t.val % 8 = 7 := (isLast_iff t).mp hL
    have hF : ¬ IsFirst t := fun h => by have := (isFirst_iff t).mp h; omega
    simp only [idle_in0, idle_in1, idle_in2, idle_in3, idle_in4, idle_in5, idle6_of_last t hL, flush6_of_last t hL,
      before_0, before_1, before_2, before_3, before_4, before_5, after_0, after_1, after_2, after_3, after_4, after_5, after_6]
    rw [Φ_pre_other m c t (by omega), Φ_post_last m c t h7,
      show outAt m c t = outv (prevM m c t (by omega)) (prevL m c t (by omega)) (pMax m c t) (pMin m c t) from dif_neg (by omega)]
    iintro ⟨⟨Ha, Hb⟩, ⟨%Wt, %hW, HO⟩, ⟨%d0, H0⟩, ⟨%d1, H1⟩, ⟨%d2, H2⟩, ⟨%d3, H3⟩, ⟨%d4, H4⟩, ⟨%d5, H5⟩, ⟨%d6, H6⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6))
      (blk m c 0 t) (blk m c 1 t) (blk m c 2 t) (blk m c 3 t) (blk m c 4 t) (blk m c 5 t) (prevM m c t (by omega)) (prevL m c t (by omega)) hF hL)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [Ha]; · iexact Ha
    isplitl [Hb]; · iexact Hb
    iintro ⟨⟨H0, H1, H2, H3, H4, H5⟩, H6, Ha, Hb⟩
    isplitl [Ha Hb]
    · isplitl [Ha]; · iexists _; iexact Ha
      iexists _; iexact Hb
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    iexact H6
  · simp only [idle_in0, idle_in1, idle_in2, idle_in3, idle_in4, idle_in5, idle6_of_not_last t hL, flush6_of_not_last t hL,
      before_0, before_1, before_2, before_3, before_4, before_5, after_0, after_1, after_2, after_3, after_4, after_5]
    by_cases hF : IsFirst t
    · have h0 : t.val % 8 = 0 := (isFirst_iff t).mp hF
      rw [Φ_pre_first m c t h0, Φ_post_other m c t (by omega), accM_first m c t h0, accL_first m c t h0]
      iintro ⟨⟨Ha, Hb⟩, ⟨%Wt, %hW, HO⟩, ⟨%d0, H0⟩, ⟨%d1, H1⟩, ⟨%d2, H2⟩, ⟨%d3, H3⟩, ⟨%d4, H4⟩, ⟨%d5, H5⟩, H6⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (st0_6 t) (hstage0_6 ((cfg0.slots t 6).cast nbuf0_6))
        (blk m c 0 t) (blk m c 1 t) (blk m c 2 t) (blk m c 3 t) (blk m c 4 t) (blk m c 5 t) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Ha]; · iexact Ha
      isplitl [Hb]; · iexact Hb
      iintro ⟨⟨H0, H1, H2, H3, H4, H5⟩, H6, Ha, Hb⟩
      isplitl [Ha Hb]
      · isplitl [Ha] <;> iassumption
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      iexact H6
    · have h1 : t.val % 8 ≠ 0 := fun h => hF ((isFirst_iff t).mpr h)
      have h2 : t.val % 8 ≠ 7 := fun h => hL ((isLast_iff t).mpr h)
      rw [Φ_pre_other m c t h1, Φ_post_other m c t h2, accM_step m c t h1 (by have := t.isLt; omega), accL_step m c t h1 (by have := t.isLt; omega)]
      iintro ⟨⟨Ha, Hb⟩, ⟨%Wt, %hW, HO⟩, ⟨%d0, H0⟩, ⟨%d1, H1⟩, ⟨%d2, H2⟩, ⟨%d3, H3⟩, ⟨%d4, H4⟩, ⟨%d5, H5⟩, H6⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (st0_6 t) (hstage0_6 ((cfg0.slots t 6).cast nbuf0_6))
        (blk m c 0 t) (blk m c 1 t) (blk m c 2 t) (blk m c 3 t) (blk m c 4 t) (blk m c 5 t) (prevM m c t h1) (prevL m c t h1) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Ha]; · iexact Ha
      isplitl [Hb]; · iexact Hb
      iintro ⟨⟨H0, H1, H2, H3, H4, H5⟩, H6, Ha, Hb⟩
      isplitl [Ha Hb]
      · isplitl [Ha] <;> iassumption
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      iexact H6

end Cert.Proof.KernelIdealFrame

end
-- ==== Proof.KernelIdealRun.lean ====
/-
  The run of @main: seven host operations, the kernel region, four host operations.

  @main is taken as three segments. The first host stretch computes the labels' column and row and the squared norms'
  column and row. The region's windows are seven, on SIX arrays: the features array is read by two windows (a row block
  and a column block of one array), so at the region's entry its buffer, held whole, is lent to the two windows at the
  two halves of the full share, and at the exit the halves — both still at the entry contents, the windows being inputs —
  are joined back. The second host stretch sums the output column and divides by the row count. The run's post: the
  result buffer at the second stretch's term of the output column the region left, and both arguments as launched.
-/
import proofs.«134578_j63556926046454_2_alg».proof.Proof.KernelIdealData

noncomputable section

namespace Cert.Proof.KernelIdealFrame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof's algebra is the pipeline library's alone. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays behind the windows, one by one -/

/-- The six distinct buffers behind the seven windows' arrays. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v4) ↦{fullShare} W main_v4)
          ∗ (((c : Thread nD τ).loc main_v5) ↦{fullShare} W main_v5) ∗ (((c : Thread nD τ).loc main_v0) ↦{fullShare} W main_v0)
          ∗ (((c : Thread nD τ).loc main_v1) ↦{fullShare} W main_v1) ∗ (((c : Thread nD τ).loc main_v6) ↦{fullShare} W main_v6)) := by
  unfold Pipeline.arrBufs
  exact bigSep_eq_bigSepL_of_eq [main_arg0, main_v4, main_v5, main_v0, main_v1, main_v6] (by decide) (by decide) _

/-- Each window's share of its array: the two halves for the two windows on the features array, the whole for the rest. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The pipeline's arrays at contents `G`, window by window, each at its share: the features array twice, at the two halves. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v4) ↦{fullShare} G 2) ∗ (((c : Thread nD τ).loc main_v5) ↦{fullShare} G 3)
          ∗ (((c : Thread nD τ).loc main_v0) ↦{fullShare} G 4) ∗ (((c : Thread nD τ).loc main_v1) ↦{fullShare} G 5)
          ∗ (((c : Thread nD τ).loc main_v6) ↦{fullShare} G 6)) := by
  unfold Dat.arrays
  rw [bigSep_W0]
  simp only [View.set_whole]
  rw [share_0, share_1, share_2, share_3, share_4, share_5, share_6]

/-- ENTRY: the six buffers held whole make the pipeline's arrays at the entry contents, the features array dealt in halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H4, H5, Hv0, Hv1, H6⟩
  ihave H0' := (pointsTo_share (PosShare.mem_left_op_right fullShare)).1 $$ H0
  icases H0' with ⟨Hl, Hr⟩
  isplitl [Hl]; · iexact Hl
  isplitl [Hr]; · iexact Hr
  isplitl [H4]; · iexact H4
  isplitl [H5]; · iexact H5
  isplitl [Hv0]; · iexact Hv0
  isplitl [Hv1]; · iexact Hv1
  iexact H6

/-! ## @main after the region -/

/-- Core `c`'s buffers when the region is left: as entered, but for the output column, at what the write-backs left. -/
def W₁ (c : Dev nD) : Valuation τ sig (Elt F) :=
  Function.update (StableHlo.after hostOps0 (V₀ m c)) (Proc.devRef .tc main_v6) ((dats m 0 c).arrAt 6 cfg0.N)
/-- and at the end: the four host operations have run. -/
abbrev Wₙ (c : Dev nD) : Valuation τ sig (Elt F) := StableHlo.after hostOps1 (W₁ m c)

theorem W₁_v6 (c : Dev nD) : W₁ m c (Proc.devRef .tc main_v6) = (dats m 0 c).arrAt 6 cfg0.N := by
  unfold W₁; exact Function.update_self ..
theorem W₁_of_ne (c : Dev nD) (b : Ref sig .tc) (h : b ≠ main_v6) : W₁ m c (Proc.devRef .tc b) = V m c b := by
  unfold W₁; exact Function.update_of_ne (StableHlo.devRef_ne_of_ne h) ..

/-- EXIT: the pipeline's arrays at their final contents make the six buffers held whole at the exit valuation — the inputs'
    arrays as entered (the two halves of the features array joined), the output column as the write-backs left it. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W₁ m c b) := by
  rw [arrBufs_eq, arrays_eq, W₁_v6, W₁_of_ne m c main_arg0 (by decide), W₁_of_ne m c main_v4 (by decide), W₁_of_ne m c main_v5 (by decide),
    W₁_of_ne m c main_v0 (by decide), W₁_of_ne m c main_v1 (by decide),
    (dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  iintro ⟨Hl, Hr, H4, H5, Hv0, Hv1, H6⟩
  ihave H0 := (pointsTo_share (PosShare.mem_left_op_right fullShare)).2 $$ [Hl Hr]
  · isplitl [Hl]; · iexact Hl
    iexact Hr
  isplitl [H0]; · iexact H0
  isplitl [H4]; · iexact H4
  isplitl [H5]; · iexact H5
  isplitl [Hv0]; · iexact Hv0
  isplitl [Hv1]; · iexact Hv1
  iexact H6

/-- The buffers that bypass the region are at the exit what they were at the entry. -/
theorem unscopedRest_exit (c : Dev nD) :
    (Pipeline.unscopedRest (Ix := Unit) (Name := ℕ) (U := UR sig nD τ) (Lvl := ℕ) spec0 c (fun b => W₁ m c b) : sProp 𝕄)
      = Pipeline.unscopedRest spec0 c (V m c) := by
  rw [unscopedRest0_eq, unscopedRest0_eq, W₁_of_ne m c main_arg1 (by decide), W₁_of_ne m c main_v2 (by decide), W₁_of_ne m c main_cst (by decide),
    W₁_of_ne m c main_v3 (by decide), W₁_of_ne m c main_cst_0 (by decide), W₁_of_ne m c main_v7 (by decide), W₁_of_ne m c main_cst_1 (by decide),
    W₁_of_ne m c main_v8 (by decide)]

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The kernel names no semaphore of its own. -/
abbrev osem : Fin 0 → SemLoc sig := fun k => k.elim0
theorem ownSemFacts : Pipeline.OwnSemFacts spec0 osem := by decide
omit [FloatOps F] in
theorem ownSems0_eq (c : Dev nD) :
    (Pipeline.ownSems0 (Ix := Unit) (Name := ℕ) (U := UR sig nD τ) (Lvl := ℕ) (Val := Elt F) (τ := τ) osem c : sProp 𝕄) = iprop(emp) :=
  Pipeline.ownSems0_eq_of_list c osem [] (by decide) (by decide)

/-- What rides beside the buffers through the host operations: the core's `owes`, at nothing. -/
abbrev R (c : Dev nD) : sProp 𝕄 := iprop(∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- THE FIRST HOST SEGMENT: seven operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m) R
/-- THE SECOND: four operations, from the exit valuation. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (W₁ m) R

theorem scPart_zero (c : Dev nD) : scPart m c 0 = iprop((∃ a, owns (c : Thread nD τ) sc0 fullShare a) ∗ ∃ b, owns (c : Thread nD τ) sc1 fullShare b) := by
  unfold scPart; exact dif_pos (by decide)
theorem scPart_last (c : Dev nD) : scPart m c (Fin.last cfg0.N) = iprop((∃ a, owns (c : Thread nD τ) sc0 fullShare a) ∗ ∃ b, owns (c : Thread nD τ) sc1 fullShare b) := by
  unfold scPart; exact dif_pos (by decide)

set_option backward.isDefEq.respectTransparency.types false in
/-- THE REGION, entered from what the first segment left and left for the second. -/
def reg0 : Pipeline.RegionSeg (pcfgs (F := F)) adm (dats m) () defs₀ 𝒱₀ L lv 0 where
  win := winFacts₀0
  block_pos := block_pos0
  stage_whole := stage_whole0
  K := Fin 0
  osem := osem
  ho := ownSemFacts
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X _ := iprop(emp)
  Y _ := iprop(emp)
  Z c := Pipeline.unscopedRest spec0 c (V m c)
  hentry c := by
    rw [show StableHlo.held (c : Thread nD τ) (Pipeline.ucRefs τ sig) (StableHlo.after hostOps0 (V₀ m c)) = unscopedBufs c (V m c)
        from (Pipeline.unscopedBufs_held c _).symm,
      Pipeline.unscopedBufs_split₀ cfgs 0 winFacts₀0.arr_unscoped c (V m c)]
    iintro ⟨⟨⟨Hab, Hrest⟩, HO⟩, -, -⟩
    ihave Ha := (arrays_of_arrBufs m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = scPart m c 0 from rfl, scPart_zero, scopedRest0_eq]
    iintro ⟨-, -, ⟨%f0, H0⟩, ⟨%f1, H1⟩⟩
    isplitl [H0]
    · iexists f0; rw [owns_whole_eq]; iexists f0; isplitr; (· ipureintro; rfl); iexact H0
    · iexists f1; rw [owns_whole_eq]; iexists f1; isplitr; (· ipureintro; rfl); iexact H1
  hout c := by
    rw [ownSems0_eq, show (dats m 0 c).Φ (Fin.last cfg0.N) = scPart m c (Fin.last cfg0.N) from rfl, scPart_last, scopedRest0_eq]
    simp only [owns_whole_eq]
    iintro ⟨⟨%a, %f0, %hf0, H0⟩, ⟨%b, %f1, %hf1, H1⟩⟩
    isplitr; · iempintro
    isplitr; · iempintro
    isplitl [H0]; · iexists f0; iexact H0
    iexists f1; iexact H1
  hexit c := by
    rw [show StableHlo.held (c : Thread nD τ) (Pipeline.ucRefs τ sig) (W₁ m c) = unscopedBufs c (fun b => W₁ m c b)
        from (Pipeline.unscopedBufs_held c _).symm,
      Pipeline.unscopedBufs_split₀ cfgs 0 winFacts₀0.arr_unscoped c (fun b => W₁ m c b), unscopedRest_exit]
    iintro ⟨Ha, HO, -, HZ⟩
    ihave Hb := (arrBufs_of_arrays m c) $$ Ha
    imodintro
    isplitr [HO]
    · isplitl [Hb]; · iexact Hb
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- No host operation of the first stretch writes an argument; none of the second does either. -/
theorem not_written0 (b : Ref sig .tc) (hb : b ≠ main_v0 ∧ b ≠ main_v1 ∧ b ≠ main_v2 ∧ b ≠ main_cst ∧ b ≠ main_v3 ∧ b ≠ main_v4 ∧ b ≠ main_v5) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.reshape_writes, StableHlo.binary_writes, StableHlo.nullary_writes, Finset.mem_singleton] <;>
    exact StableHlo.devRef_ne_of_ne ‹_›
theorem not_written1 (b : Ref sig .tc) (hb : b ≠ main_cst_0 ∧ b ≠ main_v7 ∧ b ≠ main_cst_1 ∧ b ≠ main_v8) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.binary_writes, StableHlo.nullary_writes, Finset.mem_singleton] <;>
    exact StableHlo.devRef_ne_of_ne ‹_›

/-- The arguments reach the end as launched. -/
theorem Wₙ_arg0 (c : Dev nD) : Wₙ m c (Proc.devRef .tc main_arg0) = m ((c : Thread nD τ).loc main_arg0) :=
  (StableHlo.after_of_forall_not_mem hostOps1 (W₁ m c) (not_written1 main_arg0 (by decide))).trans
    ((W₁_of_ne m c main_arg0 (by decide)).trans
      (StableHlo.after_of_forall_not_mem (b := Proc.devRef .tc main_arg0) hostOps0 (V₀ m c) (not_written0 main_arg0 (by decide))))
theorem Wₙ_arg1 (c : Dev nD) : Wₙ m c (Proc.devRef .tc main_arg1) = m ((c : Thread nD τ).loc main_arg1) :=
  (StableHlo.after_of_forall_not_mem hostOps1 (W₁ m c) (not_written1 main_arg1 (by decide))).trans
    ((W₁_of_ne m c main_arg1 (by decide)).trans
      (StableHlo.after_of_forall_not_mem (b := Proc.devRef .tc main_arg1) hostOps0 (V₀ m c) (not_written0 main_arg1 (by decide))))

/-- The physical post: the result at the second stretch's term, both arguments as launched. -/
def QC : PUnit × MemSt nD τ sig (Elt F) → Prop := fun r =>
  ∀ c : Dev nD, r.2.mem ((c : Thread nD τ).loc main_v8) = Wₙ m c (Proc.devRef .tc main_v8)
    ∧ r.2.mem ((c : Thread nD τ).loc main_arg0) = m ((c : Thread nD τ).loc main_arg0)
    ∧ r.2.mem ((c : Thread nD τ).loc main_arg1) = m ((c : Thread nD τ).loc main_arg1)

theorem mem_ucRefs (b : Ref sig .tc) (h : b.isScoped = false) : (Proc.devRef .tc b : DevRef τ sig) ∈ Pipeline.ucRefs τ sig := by
  unfold Pipeline.ucRefs StableHlo.tcRefs
  refine Finset.mem_filter.mpr ⟨Finset.mem_map.mpr ⟨b, Finset.mem_univ _, rfl⟩, ?_⟩
  intro h'; exact Bool.false_ne_true (h.symm.trans h')

set_option backward.isDefEq.respectTransparency.types false in
/-- At the compiled mesh, for any float values, from any memory with zero counters: every weakly fair execution of @main on
    the TensorCores terminates, and every final state has the result at the computed term and the arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wₙ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v8) = Wₙ m c (Proc.devRef .tc main_v8)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (Wₙ m c) s') $$ [Hh HSI]
      · isplitl [Hh]; · iexact Hh
        iexact HSI
      icases Hr with ⟨%hr, HSI⟩
      imodintro
      isplitr
      · ipureintro
        exact ⟨hr _ (mem_ucRefs main_v8 rfl), (hr _ (mem_ucRefs main_arg0 rfl)).trans (Wₙ_arg0 m c), (hr _ (mem_ucRefs main_arg1 rfl)).trans (Wₙ_arg1 m c)⟩
      iexact HSI)
    (hQ := fun _ h => h)

end Cert.Proof.KernelIdealFrame

end
-- ==== Proof.Spec.lean ====
/-
  The batch-hard triplet loss as ONE function of the two argument arrays, on the extended reals.

  For features x : [8192, 128] and labels t : [8192]:
    sq i        = 0 + ∑ₖ x(i,k)²                                  (a row's squared norm, summed from the zero word)
    dot i j     = ∑ₖ x(i,k) · x(j,k)                              (the Gram matrix)
    dist i j    = √ max (sq i + sq j − 2 · dot i j) 0             (pairwise distance, clamped before the root)
    hardPos i   = the maximum over j of (dist i j where t i = t j, else −∞), folded from −∞
    hardNeg i   = the minimum over j of (+∞ where t i = t j, else dist i j), folded from +∞
    slack i     = max (hardPos i − hardNeg i + 1) 0
    loss        = (0 + ∑ᵢ slack i) / 8192
  Every float literal stays the extended real its word denotes (never evaluated): both programs spell the same words.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx

/-- The features, an [8192, 128] array of extended reals; the labels, an [8192] array of 32-bit words. -/
abbrev XArr : Type := (⟨2, ![8192, 128]⟩ : Shape).Idx → EReal
abbrev TArr : Type := (⟨1, ![8192]⟩ : Shape).Idx → BitVec 32

/-- The words the programs spell, as the extended reals they denote. -/
abbrev zeroW : EReal := Ideal.ofBits .f32 0x00000000#32
abbrev oneW : EReal := Ideal.ofBits .f32 0x3F800000#32
abbrev twoW : EReal := Ideal.ofBits .f32 0x40000000#32
abbrev negInfW : EReal := Ideal.ofBits .f32 0xFF800000#32
abbrev posInfW : EReal := Ideal.ofBits .f32 0x7F800000#32
abbrev countW : EReal := Ideal.ofBits .f32 0x46000000#32

/-- A row's squared norm. -/
def sq (x : XArr) (i : Fin 8192) : EReal := zeroW + ∑ k : Fin 128, x (ix2 i k) * x (ix2 i k)
/-- The Gram matrix. -/
def dot (x : XArr) (i j : Fin 8192) : EReal := ∑ k : Fin 128, x (ix2 i k) * x (ix2 j k)
/-- The pairwise distance: the squared distance by the Gram identity, clamped at zero, then the root. -/
def dist (x : XArr) (i j : Fin 8192) : EReal := Ideal.sqrt (max (sq x i + sq x j - twoW * dot x i j) zeroW)
/-- Whether two rows carry the same label, as the one-bit word the comparison gives. -/
def same (t : TArr) (i j : Fin 8192) : BitVec 1 := IntOp.cmpi .eq (t (ix1 i)) (t (ix1 j))
/-- The positive candidates of row i: its distances to rows of its label, −∞ elsewhere; -/
def candPos (x : XArr) (t : TArr) (i j : Fin 8192) : EReal := Scalar.select (same t i j) (dist x i j) negInfW
/-- the negative candidates: +∞ at rows of its label, its distances elsewhere. -/
def candNeg (x : XArr) (t : TArr) (i j : Fin 8192) : EReal := Scalar.select (same t i j) posInfW (dist x i j)
/-- The hardest positive: the largest positive candidate, folded from −∞; -/
def hardPos (x : XArr) (t : TArr) (i : Fin 8192) : EReal := (Finset.univ : Finset (Fin 8192)).fold max negInfW (candPos x t i)
/-- the hardest negative: the smallest negative candidate, folded from +∞. -/
def hardNeg (x : XArr) (t : TArr) (i : Fin 8192) : EReal := (Finset.univ : Finset (Fin 8192)).fold min posInfW (candNeg x t i)
/-- A row's slack: the margin violated, clamped at zero. -/
def slack (x : XArr) (t : TArr) (i : Fin 8192) : EReal := max (hardPos x t i - hardNeg x t i + oneW) zeroW
/-- The loss: the mean slack. -/
def loss (x : XArr) (t : TArr) : EReal := Ideal.div (zeroW + ∑ i : Fin 8192, slack x t i) countW

end Cert.Triplet

end
-- ==== Proof.RefValue.lean ====
/-
  The reference program computes the batch-hard triplet loss of the specification.

  Read at an index, stage by stage, the reference's result is the function `loss` of its two arguments:
    * a row's squared norm  0 + ∑ₖ x(i,k)²  and the Gram entry  ∑ₖ x(i,k)·x(j,k)  (the product with the transpose);
    * the clamped squared distance  d² = max (sq i + sq j − 2·dot i j) 0;
    * the guarded root  where(d² > 0, √ where(d² > 0, d², 1), 0)  is  √ d²  because d² ≥ 0: where d² > 0 both guards pass d²
      through, and otherwise d² = 0 and the outer guard's 0 is √0;
    * the label mask, and with it the positive candidates (distance or −∞) and the negative ones (+∞ or distance);
    * the row maximum and the row minimum, each a reduction over one axis of a commutative, associative operation, hence
      the fold over the row's column coordinates from the initial value −∞ (resp. +∞);
    * the slack  max (hardPos − hardNeg + 1) 0,  the total  0 + ∑ᵢ slack i  and the division by 8192.
-/
import proofs.«134578_j63556926046454_2_alg».proof.Proof.Spec
import proofs.«134578_j63556926046454_2_alg».proof.Proof.Gen.ReferenceIdeal.Run
import proofs.«134578_j63556926046454_2_alg».proof.Proof.Gen.ReferenceIdeal.Read

noncomputable section

namespace Cert.Triplet.Ref

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-- The reference's two arguments: the features and the labels. -/
abbrev XBuf : Type := (⟨S8192x128, .f32⟩ : BufTy).Contents (Elt Ideal)
abbrev TBuf : Type := (⟨S8192, .i32⟩ : BufTy).Contents (Elt Ideal)

/-! ## A row's squared norm and the Gram matrix -/

/-- The row sum of squares at row `i`: the zero word plus the sum over the row of the squares. -/
theorem sq_read (x0 : XBuf) (i : Fin 8192) : val_main_v1 (F := Ideal) x0 (ix1 i) = sq x0 i := by
  rw [val_main_v1_apply, val_main_cst_apply]
  unfold sq
  refine congrArg (_ + ·) (Finset.sum_congr rfl fun k _ => ?_)
  rw [val_main_v0_apply]
  have e : idx_main_v1 (ix1 i) k = ix2 i k :=
    funext fun a => Fin.ext (by match a with | ⟨0, _⟩ => rfl | ⟨1, _⟩ => rfl)
  rw [e]; rfl

/-- The product of the features with their transpose at `(i, j)`: the inner product of rows `i` and `j`. -/
theorem gram_read (x0 : XBuf) (i j : Fin 8192) : val_main_v8 (F := Ideal) x0 (ix2 i j) = dot x0 i j := by
  rw [val_main_v8_apply]
  unfold dot
  refine Finset.sum_congr rfl fun k _ => ?_
  rw [val_main_v7_apply]
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [el, er]

/-- The clamped squared distance at `(i, j)`. -/
theorem sqdist_read (x0 : XBuf) (i j : Fin 8192) :
    val_main_v13 (F := Ideal) x0 (ix2 i j) = max (sq x0 i + sq x0 j - twoW * dot x0 i j) zeroW := by
  have ei : idx_main_v2 (idx_main_v4 (ix2 i j)) = ix1 i :=
    funext fun a => Fin.ext (by match a with | ⟨0, _⟩ => rfl)
  have ej : idx_main_v3 (idx_main_v5 (ix2 i j)) = ix1 j :=
    funext fun a => Fin.ext (by match a with | ⟨0, _⟩ => rfl)
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, ei, ej, sq_read, sq_read, gram_read]
  rfl

/-! ## The distance: the guarded root of a nonnegative number is its root -/

/-- For `d ≥ 0`: where `d > 0` both guards pass `d` to the root, and otherwise `d = 0` and the outer guard's `0` is `√0`. -/
theorem guarded_sqrt (d c : EReal) (hd : 0 ≤ d) :
    Scalar.select (Ideal.cmp .ogt d zeroW) (Ideal.sqrt (Scalar.select (Ideal.cmp .ogt d zeroW) d c)) zeroW
      = Ideal.sqrt d := by
  have hz : zeroW = 0 := Ideal.ofBits_zero_f32
  rw [hz]
  by_cases h : 0 < d
  · have hc : Ideal.cmp .ogt d 0 = 1#1 := by simp [Ideal.cmp, h]
    rw [hc, select_one, select_one]
  · have hc : Ideal.cmp .ogt d 0 = 0#1 := by simp [Ideal.cmp, h]
    have hd0 : d = 0 := le_antisymm (not_lt.mp h) hd
    rw [hc, select_zero, hd0, ← EReal.coe_zero, Ideal.sqrt_coe]
    simp

/-- The pairwise distance at `(i, j)`. -/
theorem dist_read (x0 : XBuf) (i j : Fin 8192) : val_main_v20 (F := Ideal) x0 (ix2 i j) = dist x0 i j := by
  rw [val_main_v20_apply, val_main_v15_apply, val_main_v19_apply, val_main_v18_apply, val_main_v17_apply,
    val_main_v14_apply, val_main_cst_2_apply, val_main_v16_apply, val_main_cst_3_apply,
    val_main_call0_v1_apply, val_main_call0_v0_apply, val_main_cst_4_apply,
    val_main_call1_v1_apply, val_main_call1_v0_apply, val_main_cst_5_apply, sqdist_read]
  unfold dist
  exact guarded_sqrt _ _ (le_max_of_le_right (le_of_eq Ideal.ofBits_zero_f32.symm))

/-! ## The label mask and the candidates -/

/-- The mask at `(i, j)`: whether rows `i` and `j` carry the same label. -/
theorem same_read (x1 : TBuf) (i j : Fin 8192) : val_main_v25 (F := Ideal) x1 (ix2 i j) = same x1 i j := by
  have ei : idx_main_v21 (idx_main_v23 (ix2 i j)) = ix1 i :=
    funext fun a => Fin.ext (by match a with | ⟨0, _⟩ => rfl)
  have ej : idx_main_v22 (idx_main_v24 (ix2 i j)) = ix1 j :=
    funext fun a => Fin.ext (by match a with | ⟨0, _⟩ => rfl)
  rw [val_main_v25_apply, val_main_v23_apply, val_main_v21_apply, val_main_v24_apply, val_main_v22_apply, ei, ej]
  rfl

/-- The positive candidate at `(i, j)`. -/
theorem candPos_read (x0 : XBuf) (x1 : TBuf) (i j : Fin 8192) :
    val_main_v26 (F := Ideal) x0 x1 (ix2 i j) = candPos x0 x1 i j := by
  rw [val_main_v26_apply, val_main_call2_v0_apply, val_main_cst_6_apply, same_read, dist_read]
  rfl

/-- The negative candidate at `(i, j)`. -/
theorem candNeg_read (x0 : XBuf) (x1 : TBuf) (i j : Fin 8192) :
    val_main_v28 (F := Ideal) x0 x1 (ix2 i j) = candNeg x0 x1 i j := by
  rw [val_main_v28_apply, val_main_call3_v0_apply, val_main_cst_8_apply, same_read, dist_read]
  rfl

/-! ## The row maximum and the row minimum -/

/-- The row reductions' shape fact in the form that names the inserted index. -/
theorem rowReduces : S8192x8192.Reduces [1] S8192 := by decide

/-- Row `i` with column coordinate `k` inserted is the index `(i, k)`. -/
theorem lift_row (i k : Fin 8192) : rowReduces.lift (ix1 i) k = ix2 i k :=
  funext fun a => Fin.ext (by match a with | ⟨0, _⟩ => rfl | ⟨1, _⟩ => rfl)

/-- The hardest positive of row `i`: the maximum, folded from −∞, of the row's positive candidates. -/
theorem hardPos_read (x0 : XBuf) (x1 : TBuf) (i : Fin 8192) :
    val_main_v27 (F := Ideal) x0 x1 (ix1 i) = hardPos x0 x1 i := by
  unfold val_main_v27 hardPos
  rw [Host.reduce_eq_fold_single FloatOps.maximumf _ _ reducesTo_S8192x8192_S8192_d1 rowReduces h_S_ (ix1 i),
    val_main_cst_7_apply]
  refine congrArg (fun f : Fin 8192 → EReal => Finset.fold max negInfW f Finset.univ) (funext fun k : Fin 8192 => ?_)
  show val_main_v26 (F := Ideal) x0 x1 (rowReduces.lift (ix1 i) k) = _
  rw [lift_row, candPos_read]

/-- The hardest negative of row `i`: the minimum, folded from +∞, of the row's negative candidates. -/
theorem hardNeg_read (x0 : XBuf) (x1 : TBuf) (i : Fin 8192) :
    val_main_v29 (F := Ideal) x0 x1 (ix1 i) = hardNeg x0 x1 i := by
  unfold val_main_v29 hardNeg
  rw [Host.reduce_eq_fold_single FloatOps.minimumf _ _ reducesTo_S8192x8192_S8192_d1 rowReduces h_S_ (ix1 i),
    val_main_cst_9_apply]
  refine congrArg (fun f : Fin 8192 → EReal => Finset.fold min posInfW f Finset.univ) (funext fun k : Fin 8192 => ?_)
  show val_main_v28 (F := Ideal) x0 x1 (rowReduces.lift (ix1 i) k) = _
  rw [lift_row, candNeg_read]

/-! ## The slack, the total and the mean -/

/-- Row `i`'s slack. -/
theorem slack_read (x0 : XBuf) (x1 : TBuf) (i : Fin 8192) :
    val_main_v34 (F := Ideal) x0 x1 (ix1 i) = slack x0 x1 i := by
  rw [val_main_v34_apply, val_main_v32_apply, val_main_v30_apply, val_main_v31_apply, val_main_cst_10_apply,
    val_main_v33_apply, val_main_cst_11_apply, hardPos_read, hardNeg_read]
  rfl

/-- A sum over the rank-1 index set is the sum over its coordinate. -/
theorem sum_rows (f : S8192.Idx → EReal) : ∑ j : S8192.Idx, f j = ∑ i : Fin 8192, f (ix1 i) :=
  (Fintype.sum_equiv
    { toFun := ix1, invFun := fun j => j 0, left_inv := fun _ => rfl, right_inv := fun j => (eq_ix1 j).symm }
    (fun i => f (ix1 i)) f (fun _ => rfl)).symm

/-- The total: the zero word plus the sum of the slacks. -/
theorem total_read (x0 : XBuf) (x1 : TBuf) (ix : S_.Idx) :
    val_main_v35 (F := Ideal) x0 x1 ix = zeroW + ∑ i : Fin 8192, slack x0 x1 i := by
  rw [val_main_v35_apply, val_main_cst_12_apply, sum_rows]
  exact congrArg (zeroW + ·) (Finset.sum_congr rfl fun i _ => slack_read x0 x1 i)

/-- THE REFERENCE'S RESULT is the specification's loss. -/
theorem ref_loss (x0 : XBuf) (x1 : TBuf) :
    val_main_v36 (F := Ideal) x0 x1 = fun _ => loss x0 x1 := by
  funext ix
  rw [val_main_v36_apply, total_read, val_main_cst_13_apply]
  rfl

/-- The same of the run's result term: on every device the reference leaves the loss of its two arguments' contents. -/
theorem res_loss (m : (ℓ : Loc nD τ sig) → Buf (Elt Ideal) ℓ) (c : Dev nD) :
    Cert.ReferenceIdeal.Value.res_out0 (F := Ideal) m c
      = fun _ => loss (m ((c.tc : Thread nD τ).loc main_arg0)) (m ((c.tc : Thread nD τ).loc main_arg1)) :=
  (val_main_v36_eq m c).trans (ref_loss _ _)

end Cert.Triplet.Ref

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelIdealHost.lean ====
/-
  The kernel program's host operations, before and after its region, as the specification's functions.

  Before the region the program reshapes the labels to a column and to a row, and sums the features' squares along each
  row, from the zero word, into the squared norms, reshaped likewise. Read at an index: the column at (i, 0) and the row
  at (0, j) hold the label, resp. the squared norm  0 + ∑ₖ x(i,k)²,  of row i, resp. j; a reshape keeps the row-major
  position, and the two arguments are not written. After the region the program sums a column over both axes from the
  zero word and divides by 8192: when the column holds the slacks this is  (0 + ∑ᵢ slack i) / 8192,  the loss — the sum
  over every index of an [8192, 1] array is the sum over the first coordinate, the second having one value.
-/
import proofs.«134578_j63556926046454_2_alg».proof.Proof.KernelIdealData
import proofs.«134578_j63556926046454_2_alg».proof.Proof.Spec
import proofs.«134578_j63556926046454_2_alg».proof.Proof.LibColumn
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Triplet.KHost

open Cert.KernelIdeal Cert.KernelIdeal.Gen Cert.Proof.KernelIdealFrame
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- The features and the labels the program is launched with, on core `c`. -/
abbrev feat : XArr := m ((c : Thread nD τ).loc main_arg0)
abbrev labs : TArr := m ((c : Thread nD τ).loc main_arg1)

/-! ## The arguments are not written -/

theorem V_arg0 : V m c main_arg0 = feat m c := by
  show StableHlo.after hostOps0 (V₀ m c) (Proc.devRef .tc main_arg0) = _
  after_results

theorem V_arg1 : V m c main_arg1 = labs m c := by
  show StableHlo.after hostOps0 (V₀ m c) (Proc.devRef .tc main_arg1) = _
  after_results

/-! ## The squared norms, as a column and as a row -/

/-- The host's row sum of squares at row `i`: the zero word plus the sum over the row of the squares. -/
theorem rowNorm (x : XArr) (i : Fin 8192) :
    Host.reduceAdd (F := Ideal) (mulf (F := Ideal) (φ := .f32) x x) (constant (F := Ideal) S_ .f32 0x00000000#32)
      reducesTo_S8192x128_S8192_d1 h_S_ (ix1 i) = sq x i := by
  simp only [Host.reduceAdd, Ideal.hostReduceAdd_def]
  rw [Ideal.hostReduceAdd_single reducesTo_S8192x128_S8192_d1 (by decide)]
  unfold sq
  refine congrArg (_ + ·) (Finset.sum_congr rfl fun k _ => ?_)
  exact congrArg (fun j => x j * x j) (funext fun a => Fin.ext (by match a with | ⟨0, _⟩ => rfl | ⟨1, _⟩ => rfl))

theorem V_v4 : (V m c main_v4 : S8192x1.Idx → EReal)
    = shapeCast S8192x1 (Host.reduceAdd (F := Ideal) (mulf (F := Ideal) (φ := .f32) (feat m c) (feat m c))
        (constant (F := Ideal) S_ .f32 0x00000000#32) reducesTo_S8192x128_S8192_d1 h_S_) shapeCasts_S8192_S8192x1 := by
  show StableHlo.after hostOps0 (V₀ m c) (Proc.devRef .tc main_v4) = _
  after_results
  rfl

theorem V_v5 : (V m c main_v5 : S1x8192.Idx → EReal)
    = shapeCast S1x8192 (Host.reduceAdd (F := Ideal) (mulf (F := Ideal) (φ := .f32) (feat m c) (feat m c))
        (constant (F := Ideal) S_ .f32 0x00000000#32) reducesTo_S8192x128_S8192_d1 h_S_) shapeCasts_S8192_S1x8192 := by
  show StableHlo.after hostOps0 (V₀ m c) (Proc.devRef .tc main_v5) = _
  after_results
  rfl

/-- The norms' column at `(i, 0)` is row `i`'s squared norm. -/
theorem V_v4_apply (i : Fin 8192) : (V m c main_v4 : S8192x1.Idx → EReal) (ix2 i (0 : Fin 1)) = sq (feat m c) i := by
  rw [V_v4, shapeCast_a_a1_apply, rowNorm]

/-- The norms' row at `(0, j)` is row `j`'s squared norm. -/
theorem V_v5_apply (j : Fin 8192) : (V m c main_v5 : S1x8192.Idx → EReal) (ix2 (0 : Fin 1) j) = sq (feat m c) j := by
  rw [V_v5, shapeCast_a_1a_apply, rowNorm]

/-! ## The labels, as a column and as a row -/

theorem V_v0 : (V m c main_v0 : S8192x1.Idx → BitVec 32) = shapeCast S8192x1 (labs m c) shapeCasts_S8192_S8192x1 := by
  show StableHlo.after hostOps0 (V₀ m c) (Proc.devRef .tc main_v0) = _
  after_results
  rfl

theorem V_v1 : (V m c main_v1 : S1x8192.Idx → BitVec 32) = shapeCast S1x8192 (labs m c) shapeCasts_S8192_S1x8192 := by
  show StableHlo.after hostOps0 (V₀ m c) (Proc.devRef .tc main_v1) = _
  after_results
  rfl

/-- The labels' column at `(i, 0)` is row `i`'s label. -/
theorem V_v0_apply (i : Fin 8192) : (V m c main_v0 : S8192x1.Idx → BitVec 32) (ix2 i (0 : Fin 1)) = labs m c (ix1 i) := by
  rw [V_v0, shapeCast_a_a1_apply]

/-- The labels' row at `(0, j)` is row `j`'s label. -/
theorem V_v1_apply (j : Fin 8192) : (V m c main_v1 : S1x8192.Idx → BitVec 32) (ix2 (0 : Fin 1) j) = labs m c (ix1 j) := by
  rw [V_v1, shapeCast_a_1a_apply]

/-! ## After the region: the mean of a column of slacks -/

/-- The sum over both axes of a column holding the slacks, from the zero word, divided by 8192, is the loss. -/
theorem tail_loss (x : XArr) (tt : TArr) (Y : (⟨S8192x1, .f32⟩ : BufTy).Contents (Elt Ideal))
    (hY : ∀ i : Fin 8192, Y (ix2 i (0 : Fin 1)) = slack x tt i) :
    Host.divf (F := Ideal) (Host.reduceAdd (F := Ideal) Y (constant (F := Ideal) S_ .f32 0x00000000#32) reducesTo_S8192x1_S_d0_1 h_S_)
        (constant (F := Ideal) S_ .f32 0x46000000#32)
      = fun _ => loss x tt := by
  funext ix
  show Ideal.div (Host.reduceAdd (F := Ideal) Y (constant (F := Ideal) S_ .f32 0x00000000#32) reducesTo_S8192x1_S_d0_1 h_S_ ix) countW
    = loss x tt
  unfold loss
  refine congrArg (Ideal.div · countW) ?_
  simp only [Host.reduceAdd, Ideal.hostReduceAdd_def]
  rw [Ideal.hostReduceAdd_total reducesTo_S8192x1_S_d0_1 (fun b => b.elim0), sum_idx2]
  refine congrArg (_ + ·) (Finset.sum_congr rfl fun i _ => ?_)
  rw [Fin.sum_univ_one]
  exact hY i

/-- The same of the program's last four operations: from any contents whose output column holds the slacks, they leave
    the loss in the result. -/
theorem after_tail (x : XArr) (tt : TArr) (W : Valuation τ sig (Elt Ideal))
    (hW : ∀ i : Fin 8192, (W (Proc.devRef .tc main_v6) : S8192x1.Idx → EReal) (ix2 i (0 : Fin 1)) = slack x tt i) :
    (StableHlo.after hostOps1 W (Proc.devRef .tc main_v8) : S_.Idx → EReal) = fun _ => loss x tt := by
  have e : (StableHlo.after hostOps1 W (Proc.devRef .tc main_v8) : S_.Idx → EReal)
      = Host.divf (F := Ideal) (Host.reduceAdd (F := Ideal) (W (Proc.devRef .tc main_v6) : S8192x1.Idx → EReal)
          (constant (F := Ideal) S_ .f32 0x00000000#32) reducesTo_S8192x1_S_d0_1 h_S_)
        (constant (F := Ideal) S_ .f32 0x46000000#32) := by
    after_results
  rw [e]
  exact tail_loss x tt _ hW

end Cert.Triplet.KHost

end
-- ==== Proof.KernelIdealCover.lean ====
/-
  From the output's blocks to the output array.

  The output column [8192, 1] is written back in eight blocks [1024, 1]: block p at the grid point 8·p + 7, the last
  column block of row block p, and at no other point. Row i of the column lies in block i / 1024 at position i % 1024,
  so the eight blocks tile the column. Hence, if the block written back at each such point holds the slacks of its
  rows, the column ends holding the slack of every row.
-/
import proofs.«134578_j63556926046454_2_alg».proof.Proof.KernelIdealData
import proofs.«134578_j63556926046454_2_alg».proof.Proof.Spec
import Idealize.ShloMosaic.Lib.Pipeline.Value

noncomputable section

namespace Cert.Triplet.KCover

open Cert.KernelIdeal Cert.KernelIdeal.Gen Cert.Proof.KernelIdealFrame
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The column of slacks: what the output array is to hold. -/
abbrev slackCol (x : XArr) (tt : TArr) : S8192x1.Idx → EReal := fun j => slack x tt (j 0)

/-- The output's block index at point `t`: row block `t / 8`, the one column block. -/
theorem block_index : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- WHAT A WRITING POINT WRITES BACK is its block of the column of slacks, when the block it holds is the slacks of its rows. -/
theorem flushed_eq (x : XArr) (tt : TArr)
    (hblk : ∀ t : Fin cfg0.N, t.val % 8 = 7 → ∀ (r : Fin 1024) (i : Fin 8192), i.val = 1024 * (t.val / 8) + r.val →
      outAt m c t (ix2 r (0 : Fin 1)) = slack x tt i)
    (t : Fin cfg0.N) (hf : (cfg0.win 6).flush t = true) :
    (dats m 0 c).flushed 6 t = ((cfg0.win 6).blk t).view.read (Elt Ideal) (slackCol x tt) := by
  have h7 : t.val % 8 = 7 := (flush0_6 t).mp hf
  obtain ⟨e0, e1⟩ := block_index t
  have hN : cfg0.N = 64 := N_0
  have ht : t.val < cfg0.N := t.isLt
  show (cfg0.win 6).cut (grid0.coords t) ((dats m 0 c).after 6 t) = _
  rw [after_6]
  funext j
  have hj0 : (j 0).val < 1024 := (j 0).isLt
  have hj1 : (j 1).val < 1 := (j 1).isLt
  have ej : (cfg0.win 6).xinj (grid0.coords t) j = ix2 (⟨(j 0).val, hj0⟩ : Fin 1024) (0 : Fin 1) :=
    funext fun a => Fin.ext (by
      match a with
      | ⟨0, _⟩ => rfl
      | ⟨1, _⟩ => show (j 1).val = 0; omega)
  show outAt m c t ((cfg0.win 6).xinj (grid0.coords t) j) = slackCol x tt (((cfg0.win 6).blk t).view.emb j)
  rw [ej, hblk t h7 ⟨(j 0).val, hj0⟩ ⟨1024 * (t.val / 8) + (j 0).val, by omega⟩ rfl]
  show slack x tt _ = slack x tt _
  refine congrArg (slack x tt) (Fin.ext ?_)
  show 1024 * (t.val / 8) + (j 0).val = win0_6.index t (0 : Fin 2) * 1024 + 1 * (j 0).val
  omega

/-- An index of the column is in point `t`'s block iff each coordinate is in the block's range on its axis. -/
theorem mem_blk (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v6).slice (win0_6.rect t)).set ↔ _
  rw [View.set_slice_whole, Rect.mem_set_unit]
  exact Iff.rfl

/-- THE BLOCKS TILE THE COLUMN: row `i` is in the block written back at point `8 · (i / 1024) + 7`. -/
theorem cover (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 64 := N_0
  have hlt : 8 * ((i 0).val / 1024) + 7 < cfg0.N := by omega
  obtain ⟨e0, e1⟩ := block_index ⟨8 * ((i 0).val / 1024) + 7, hlt⟩
  have e0' : win0_6.index ⟨8 * ((i 0).val / 1024) + 7, hlt⟩ (0 : Fin 2) = (8 * ((i 0).val / 1024) + 7) / 8 := e0
  refine ⟨⟨8 * ((i 0).val / 1024) + 7, hlt⟩, (flush0_6 _).mpr (by show (8 * ((i 0).val / 1024) + 7) % 8 = 7; omega), ?_⟩
  rw [mem_blk]
  intro a
  match a with
  | ⟨0, _⟩ =>
    show win0_6.index ⟨8 * ((i 0).val / 1024) + 7, hlt⟩ (0 : Fin 2) * 1024 ≤ (i 0).val
      ∧ (i 0).val < win0_6.index ⟨8 * ((i 0).val / 1024) + 7, hlt⟩ (0 : Fin 2) * 1024 + 1024
    omega
  | ⟨1, _⟩ =>
    show win0_6.index ⟨8 * ((i 0).val / 1024) + 7, hlt⟩ (1 : Fin 2) * 1 ≤ (i 1).val
      ∧ (i 1).val < win0_6.index ⟨8 * ((i 0).val / 1024) + 7, hlt⟩ (1 : Fin 2) * 1 + 1
    omega

/-- THE OUTPUT COLUMN after the region holds the slack of every row, when each written block holds the slacks of its rows. -/
theorem final_out (x : XArr) (tt : TArr)
    (hblk : ∀ t : Fin cfg0.N, t.val % 8 = 7 → ∀ (r : Fin 1024) (i : Fin 8192), i.val = 1024 * (t.val / 8) + r.val →
      outAt m c t (ix2 r (0 : Fin 1)) = slack x tt i) :
    ∀ i : Fin 8192, ((dats m 0 c).arrAt 6 cfg0.N : S8192x1.Idx → EReal) (ix2 i (0 : Fin 1)) = slack x tt i := by
  intro i
  rw [(dats m 0 c).arrAt_eq_of_cover 6 (slackCol x tt) (flushed_eq m c x tt hblk) cover]

end Cert.Triplet.KCover

end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.PayIdeal.lean ====
/-
  The kernel body's arithmetic, read one element at a time on the extended reals.

  One grid step holds a block of 1024 rows (features a, squared norms p, labels s as a column) and a block of 1024
  columns (features b, squared norms q, labels u as a row). The body forms, at (r, c),
      root r c  =  √ max (p r + q c − 2 · ∑ₖ a(r,k) · b(c,k)) 0        and the bit  eq r c = (s r = u c),
  and hands on, for every row r,
      the maximum over c of (root r c where eq r c, else −∞), folded from −∞,
      the minimum over c of (+∞ where eq r c, else root r c), folded from +∞.
  The stores combine these with the running values: max (old) (new), min (old) (new); the first step stores −∞ and +∞;
  the last step stores max (hardest positive − hardest negative + 1) 0.
  Every float literal stays the extended real its word denotes.

  Last, the lattice fact behind the running extremum: a maximum taken block by block, each block folded from the same
  start a, is bounded by z exactly when a and every entry are (and the twin for minima).
-/
import proofs.«134578_j63556926046454_2_alg».proof.Proof.Gen.KernelIdeal.Skeleton
import proofs.«134578_j63556926046454_2_alg».proof.Proof.Spec
import proofs.«134578_j63556926046454_2_alg».proof.Proof.LibDotNT
import proofs.«134578_j63556926046454_2_alg».proof.Proof.LibColumn
import Idealize.ShloMosaic.Lib.ValueLayout
import Idealize.ShloMosaic.PureOps.Ideal.Laws
import Idealize.ShloMosaic.PureOps.Reduce

noncomputable section

namespace Cert.Triplet.Pay

open Idealize.ShloMosaic Idealize.ShloMosaic.ValueIdx Cert.KernelIdeal Cert.KernelIdeal.Gen

/-- The clamped root of the squared distance at (r, c). -/
theorem pay6_apply (v3 v4 : Vec Ideal S1024x128 .f32) (v6 : Vec Ideal S1024x1 .f32) (v8 : Vec Ideal S1x1024 .f32)
    (r c : Fin 1024) :
    k0_pay6 (F := Ideal) v3 v4 v6 v8 (ix2 r c)
      = Ideal.sqrt (max (v6 (ix2 r 0) + v8 (ix2 0 c) - twoW * ∑ k : Fin 128, v3 (ix2 r k) * v4 (ix2 c k)) zeroW) := by
  unfold k0_pay6
  simp only [shapeCast_self]
  show Ideal.sqrt (max (broadcastTo S1024x1024 v6 broadcasts_S1024x1_S1024x1024 (ix2 r c)
      + broadcastTo S1024x1024 v8 broadcasts_S1x1024_S1024x1024 (ix2 r c)
      - twoW * FloatOps.matmul dot_S1024x128_S1024x128_S1024x1024_1_1_0_0_n_n (some ContractPrecision.fp32) v3 v4
          (constant (F := Ideal) S1024x1024 .f32 0x00000000#32) (ix2 r c)) zeroW) = _
  rw [broadcastTo_a1_ab_apply, broadcastTo_1b_ab_apply,
    matmul_nt_zero_apply dot_S1024x128_S1024x128_S1024x1024_1_1_0_0_n_n rfl rfl rfl rfl rfl rfl rfl rfl]

/-- The label comparison at (r, c). -/
theorem pay7_apply (v19 : Vec Ideal S1024x1 .i32) (v21 : Vec Ideal S1x1024 .i32) (r c : Fin 1024) :
    k0_pay7 (F := Ideal) v19 v21 (ix2 r c) = IntOp.cmpi .eq (v19 (ix2 r 0)) (v21 (ix2 0 c)) := by
  unfold k0_pay7
  simp only [shapeCast_self]
  show IntOp.cmpi .eq (broadcastTo S1024x1024 v19 broadcasts_S1024x1_S1024x1024 (ix2 r c))
      (broadcastTo S1024x1024 v21 broadcasts_S1x1024_S1024x1024 (ix2 r c)) = _
  rw [broadcastTo_a1_ab_apply, broadcastTo_1b_ab_apply]

/-- A minimum over one axis, read on the extended reals: the fold of `min` from the accumulator's value over that
    axis's coordinates (the twin of the library's reading of a maximum). -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row r of the 1024 × 1024 block with the column c put back. -/
theorem lift_row (r c : Fin 1024) : reduces_S1024x1024_S1024.lift (ix1 r) c = ix2 r c := by
  funext a
  refine Fin.ext ?_
  match a with
  | ⟨0, _⟩ => rfl
  | ⟨1, _⟩ => rfl

/-- The block's hardest positive of row r: the largest, over the block's columns, of the root where the labels agree
    and −∞ where they do not, folded from −∞. -/
theorem pay8_apply (v3 v4 : Vec Ideal S1024x128 .f32) (v6 : Vec Ideal S1024x1 .f32) (v8 : Vec Ideal S1x1024 .f32)
    (v19 : Vec Ideal S1024x1 .i32) (v21 : Vec Ideal S1x1024 .i32) (r : Fin 1024) :
    k0_pay8 (F := Ideal) v3 v4 v6 v8 v19 v21 (ix2 r 0)
      = (Finset.univ : Finset (Fin 1024)).fold max negInfW (fun c =>
          Scalar.select (IntOp.cmpi .eq (v19 (ix2 r 0)) (v21 (ix2 0 c)))
            (Ideal.sqrt (max (v6 (ix2 r 0) + v8 (ix2 0 c) - twoW * ∑ k : Fin 128, v3 (ix2 r k) * v4 (ix2 c k)) zeroW))
            negInfW) := by
  unfold k0_pay8
  refine (shapeCast_a_a1_apply _ shapeCasts_S1024_S1024x1 r 0).trans ?_
  refine (Ideal.multiReduction_maximumf_single _ _ reduces_S1024x1024_S1024 _ _ (ix1 r)).trans ?_
  refine Finset.fold_congr fun (c : Fin 1024) _ => ?_
  show Scalar.select (k0_pay7 (F := Ideal) v19 v21 (reduces_S1024x1024_S1024.lift (ix1 r) c))
      (k0_pay6 (F := Ideal) v3 v4 v6 v8 (reduces_S1024x1024_S1024.lift (ix1 r) c)) negInfW = _
  rw [lift_row, pay7_apply, pay6_apply]

/-- The block's hardest negative of row r: the smallest, over the block's columns, of +∞ where the labels agree and
    the root where they do not, folded from +∞. -/
theorem pay9_apply (v3 v4 : Vec Ideal S1024x128 .f32) (v6 : Vec Ideal S1024x1 .f32) (v8 : Vec Ideal S1x1024 .f32)
    (v19 : Vec Ideal S1024x1 .i32) (v21 : Vec Ideal S1x1024 .i32) (r : Fin 1024) :
    k0_pay9 (F := Ideal) v3 v4 v6 v8 v19 v21 (ix2 r 0)
      = (Finset.univ : Finset (Fin 1024)).fold min posInfW (fun c =>
          Scalar.select (IntOp.cmpi .eq (v19 (ix2 r 0)) (v21 (ix2 0 c))) posInfW
            (Ideal.sqrt (max (v6 (ix2 r 0) + v8 (ix2 0 c) - twoW * ∑ k : Fin 128, v3 (ix2 r k) * v4 (ix2 c k)) zeroW))) := by
  unfold k0_pay9
  refine (shapeCast_a_a1_apply _ shapeCasts_S1024_S1024x1 r 0).trans ?_
  refine (multiReduction_minimumf_single _ _ reduces_S1024x1024_S1024 _ _ (ix1 r)).trans ?_
  refine Finset.fold_congr fun (c : Fin 1024) _ => ?_
  show Scalar.select (k0_pay7 (F := Ideal) v19 v21 (reduces_S1024x1024_S1024.lift (ix1 r) c)) posInfW
      (k0_pay6 (F := Ideal) v3 v4 v6 v8 (reduces_S1024x1024_S1024.lift (ix1 r) c)) = _
  rw [lift_row, pay7_apply, pay6_apply]

/-- The running maximum's update: the larger of the stored value and the block's. -/
theorem pay1_apply (v31 : FVec Ideal S1024x1 .f32) (v34 : Vec Ideal S1024x1 .f32) (i : S1024x1.Idx) :
    k0_pay1 (F := Ideal) v31 v34 i = max (v34 i) (v31 i) := by
  unfold k0_pay1
  simp only [shapeCast_self]
  rfl

/-- The running minimum's update: the smaller of the stored value and the block's. -/
theorem pay2_apply (v33 : FVec Ideal S1024x1 .f32) (v39 : Vec Ideal S1024x1 .f32) (i : S1024x1.Idx) :
    k0_pay2 (F := Ideal) v33 v39 i = min (v39 i) (v33 i) := by
  unfold k0_pay2
  simp only [shapeCast_self]
  rfl

/-- The last step's store: the margin violated, clamped at zero. -/
theorem pay3_apply (v47 v48 : Vec Ideal S1024x1 .f32) (i : S1024x1.Idx) :
    k0_pay3 (F := Ideal) v47 v48 i = max (v47 i - v48 i + oneW) zeroW := by
  unfold k0_pay3
  rfl

/-- The first step's stores: −∞ for the running maximum, -/
theorem pay4_apply (i : S1024x1.Idx) : k0_pay4 (F := Ideal) i = negInfW := by
  unfold k0_pay4
  simp only [shapeCast_self]
  rfl

/-- and +∞ for the running minimum. -/
theorem pay5_apply (i : S1024x1.Idx) : k0_pay5 (F := Ideal) i = posInfW := by
  unfold k0_pay5
  simp only [shapeCast_self]
  rfl

/-! ## A running extremum over blocks is the extremum over everything -/

section Blocks
variable {ι κ α : Type*} [Fintype ι] [Fintype κ] [LinearOrder α]

/-- A maximum taken block by block, each block folded from the same start a: it is below z exactly when the start and
    every entry are. -/
theorem fold_max_blocks_le_iff (g : ι → κ → α) (a z : α) :
    (Finset.univ : Finset ι).fold max a (fun b => (Finset.univ : Finset κ).fold max a (g b)) ≤ z
      ↔ a ≤ z ∧ ∀ b c, g b c ≤ z := by
  rw [Finset.fold_max_le]
  constructor
  · rintro ⟨ha, h⟩
    exact ⟨ha, fun b c => ((Finset.fold_max_le z).mp (h b (Finset.mem_univ b))).2 c (Finset.mem_univ c)⟩
  · rintro ⟨ha, h⟩
    exact ⟨ha, fun b _ => (Finset.fold_max_le z).mpr ⟨ha, fun c _ => h b c⟩⟩

/-- A minimum taken block by block, each block folded from the same start a: z is below it exactly when z is below the
    start and below every entry. -/
theorem le_fold_min_blocks_iff (g : ι → κ → α) (a z : α) :
    z ≤ (Finset.univ : Finset ι).fold min a (fun b => (Finset.univ : Finset κ).fold min a (g b))
      ↔ z ≤ a ∧ ∀ b c, z ≤ g b c := by
  rw [Finset.le_fold_min]
  constructor
  · rintro ⟨ha, h⟩
    exact ⟨ha, fun b c => ((Finset.le_fold_min z).mp (h b (Finset.mem_univ b))).2 c (Finset.mem_univ c)⟩
  · rintro ⟨ha, h⟩
    exact ⟨ha, fun b _ => (Finset.le_fold_min z).mpr ⟨ha, fun c _ => h b c⟩⟩

end Blocks

/-- Column c of column block b, among the 8192 columns. -/
def col (b : Fin 8) (c : Fin 1024) : Fin 8192 := ⟨b.val * 1024 + c.val, by have := b.isLt; have := c.isLt; omega⟩

theorem col_val (b : Fin 8) (c : Fin 1024) : (col b c).val = b.val * 1024 + c.val := rfl

/-- Every column lies in one of the eight blocks. -/
theorem exists_col (j : Fin 8192) : ∃ b c, col b c = j :=
  ⟨⟨j.val / 1024, by have := j.isLt; omega⟩, ⟨j.val % 1024, by omega⟩, Fin.ext (by
    show j.val / 1024 * 1024 + j.val % 1024 = j.val
    omega)⟩

/-- The maximum over the eight column blocks of the blocks' maxima, all folded from a, is the maximum over all 8192
    columns folded from a. -/
theorem fold_max_blocks_eq (f : Fin 8192 → EReal) (a : EReal) :
    (Finset.univ : Finset (Fin 8)).fold max a
        (fun b => (Finset.univ : Finset (Fin 1024)).fold max a (fun c => f (col b c)))
      = (Finset.univ : Finset (Fin 8192)).fold max a f := by
  refine eq_of_forall_ge_iff fun z => ?_
  rw [fold_max_blocks_le_iff, Finset.fold_max_le]
  refine and_congr_right fun _ => ⟨fun h j _ => ?_, fun h b c => h _ (Finset.mem_univ _)⟩
  obtain ⟨b, c, rfl⟩ := exists_col j
  exact h b c

/-- The minimum over the eight column blocks of the blocks' minima, all folded from a, is the minimum over all 8192
    columns folded from a. -/
theorem fold_min_blocks_eq (f : Fin 8192 → EReal) (a : EReal) :
    (Finset.univ : Finset (Fin 8)).fold min a
        (fun b => (Finset.univ : Finset (Fin 1024)).fold min a (fun c => f (col b c)))
      = (Finset.univ : Finset (Fin 8192)).fold min a f := by
  refine eq_of_forall_le_iff fun z => ?_
  rw [le_fold_min_blocks_iff, Finset.le_fold_min]
  refine and_congr_right fun _ => ⟨fun h j _ => ?_, fun h b c => h _ (Finset.mem_univ _)⟩
  obtain ⟨b, c, rfl⟩ := exists_col j
  exact h b c

/-- The running form the body computes: start from a, then take the larger of the stored value and each block's
    maximum in turn. Folding a list of blocks' maxima this way from a is bounded by z exactly when a and every listed
    value are. -/
theorem foldl_max_le_iff (l : List EReal) (a z : EReal) :
    l.foldl (fun acc n => max acc n) a ≤ z ↔ a ≤ z ∧ ∀ n ∈ l, n ≤ z := by
  induction l generalizing a with
  | nil => simp
  | cons n l ih =>
    rw [List.foldl_cons, ih, max_le_iff]
    simp only [List.mem_cons, forall_eq_or_imp]
    tauto

/-- and the twin for the running minimum. -/
theorem le_foldl_min_iff (l : List EReal) (a z : EReal) :
    z ≤ l.foldl (fun acc n => min acc n) a ↔ z ≤ a ∧ ∀ n ∈ l, z ≤ n := by
  induction l generalizing a with
  | nil => simp
  | cons n l ih =>
    rw [List.foldl_cons, ih, le_min_iff]
    simp only [List.mem_cons, forall_eq_or_imp]
    tauto

end Cert.Triplet.Pay

end
-- ==== Proof.KernelIdealAcc.lean ====
/-
  The running maximum and minimum along a row block, read on the extended reals, and what a row block's last point
  stores.

  The grid is 8 row blocks × 8 column blocks, the column blocks innermost: point t has row block t / 8 and column
  block t % 8. Three steps.
  (a) Every store and load of the body goes through a whole block at zero offsets, so the overlays of stored pieces
      collapse: a later point leaves max (old) (block's maxima) and min (old) (block's minima) in the two scratch
      columns, a first point the same with old = −∞ and +∞, and a last point stores max (first − second + 1) 0 of the
      two values just stored.
  (b) A window's block at a coordinate is its array at (block index) × (block size) + the coordinate: rows
      1024 · (t / 8) + r for the row-block windows, columns 1024 · (t % 8) + c for the column-block windows.
  (c) With the arrays the region finds named — features x, their squared norms as a column and as a row, labels as a
      column and as a row — the block's row maximum at point t is the largest positive candidate of row
      i = 1024 · (t / 8) + r over column block t % 8, folded from −∞. By induction on the point, the running maximum
      after point t is bounded by z exactly when −∞ and every positive candidate of row i over column blocks 0 … t % 8
      are; at t % 8 = 7 that is every column, so the running maximum is the hardest positive of row i. The minimum is
      the twin. Hence the last point of a row block stores, at row r, the slack of row i.
-/
import proofs.«134578_j63556926046454_2_alg».proof.Proof.KernelIdealData
import proofs.«134578_j63556926046454_2_alg».proof.Proof.PayIdeal
import proofs.«134578_j63556926046454_2_alg».proof.Proof.Spec

noncomputable section

namespace Cert.Triplet.KAcc

open Cert.KernelIdeal Cert.KernelIdeal.Gen Cert.Proof.KernelIdealFrame Cert.Triplet Cert.Triplet.Pay
open Idealize.ShloMosaic Idealize.ShloMosaic.TcCoe Idealize.ShloMosaic.ValueIdx
open Idealize.SL Idealize.SL.Sem

section AnyInstance

variable {F : FTy → Type} [FloatOps F]

/-! ## The overlays of whole-block stores collapse to their payloads -/

theorem zeros2 : (![0, 0] : Fin 2 → Nat) = fun _ => 0 := funext fun a => by fin_cases a <;> rfl

/-- A load of a whole column block reads the block; -/
theorem ld_rC {e : EltTy} (x : Vec F S1024x1 e) : View.ld x rC = x :=
  View.ld_unit_zero (S := S1024x1) zeros2 inb_S1024x1_S1024x1_0_0 x
/-- of a whole feature block likewise; -/
theorem ld_rA {e : EltTy} (x : Vec F S1024x128 e) : View.ld x rA = x :=
  View.ld_unit_zero (S := S1024x128) zeros2 inb_S1024x128_S1024x128_0_0 x
/-- of a whole row block likewise. -/
theorem ld_rR {e : EltTy} (x : Vec F S1x1024 e) : View.ld x rR = x :=
  View.ld_unit_zero (S := S1x1024) zeros2 inb_S1x1024_S1x1024_0_0 x

/-- A later column block's store leaves the larger of the stored value and the block's; -/
theorem stepM_eq (a : Vec F S1024x1 .f32) (p : FVec F S1024x1 .f32) : stepM a p = k0_pay1 p a :=
  (View.canon_unit_zero (S := S1024x1) zeros2 inb_S1024x1_S1024x1_0_0 _).trans (congrArg (k0_pay1 p) (ld_rC a))

/-- the smaller, for the running minimum. -/
theorem stepL_eq (b : Vec F S1024x1 .f32) (q : FVec F S1024x1 .f32) : stepL b q = k0_pay2 q b :=
  (View.canon_unit_zero (S := S1024x1) zeros2 inb_S1024x1_S1024x1_0_0 _).trans (congrArg (k0_pay2 q) (ld_rC b))

/-- A first column block's stores leave the block's value folded with the reset value: −∞ for the maximum, -/
theorem firstM_eq (p : FVec F S1024x1 .f32) : firstM p = k0_pay1 p (k0_pay4 (F := F)) :=
  (View.canon_cons_unit_zero (S := S1024x1) zeros2 inb_S1024x1_S1024x1_0_0 _ _).trans
    (congrArg (k0_pay1 p) (View.readCov_unit_zero (S := S1024x1) sc0.view zeros2 inb_S1024x1_S1024x1_0_0 _))

/-- +∞ for the minimum. -/
theorem firstL_eq (q : FVec F S1024x1 .f32) : firstL q = k0_pay2 q (k0_pay5 (F := F)) :=
  (View.canon_cons_unit_zero (S := S1024x1) zeros2 inb_S1024x1_S1024x1_0_0 _ _).trans
    (congrArg (k0_pay2 q) (View.readCov_unit_zero (S := S1024x1) sc1.view zeros2 inb_S1024x1_S1024x1_0_0 _))

/-- A last column block's output store: the clamped margin of the two running values just stored. -/
theorem outv_eq (a b : Vec F S1024x1 .f32) (p q : FVec F S1024x1 .f32) :
    outv a b p q = k0_pay3 (k0_pay1 p a) (k0_pay2 q b) :=
  (View.canon_unit_zero (S := S1024x1) zeros2 inb_S1024x1_S1024x1_0_0 _).trans
    (congrArg₂ k0_pay3
      ((View.readCov_unit_zero (S := S1024x1) sc0.view zeros2 inb_S1024x1_S1024x1_0_0 _).trans (congrArg (k0_pay1 p) (ld_rC a)))
      ((View.readCov_unit_zero (S := S1024x1) sc1.view zeros2 inb_S1024x1_S1024x1_0_0 _).trans (congrArg (k0_pay2 q) (ld_rC b))))

theorem blkMax_eq (x0 x1 : Vec F S1024x128 .f32) (x2 : Vec F S1024x1 .f32) (x3 : Vec F S1x1024 .f32)
    (x4 : Vec F S1024x1 .i32) (x5 : Vec F S1x1024 .i32) : blkMax x0 x1 x2 x3 x4 x5 = k0_pay8 x0 x1 x2 x3 x4 x5 := by
  show k0_pay8 (View.ld x0 rA) (View.ld x1 rA) (View.ld x2 rC) (View.ld x3 rR) (View.ld x4 rC) (View.ld x5 rR) = _
  rw [ld_rA, ld_rA, ld_rC, ld_rR, ld_rC, ld_rR]

theorem blkMin_eq (x0 x1 : Vec F S1024x128 .f32) (x2 : Vec F S1024x1 .f32) (x3 : Vec F S1x1024 .f32)
    (x4 : Vec F S1024x1 .i32) (x5 : Vec F S1x1024 .i32) : blkMin x0 x1 x2 x3 x4 x5 = k0_pay9 x0 x1 x2 x3 x4 x5 := by
  show k0_pay9 (View.ld x0 rA) (View.ld x1 rA) (View.ld x2 rC) (View.ld x3 rR) (View.ld x4 rC) (View.ld x5 rR) = _
  rw [ld_rA, ld_rA, ld_rC, ld_rR, ld_rC, ld_rR]

end AnyInstance

section Blocks

variable {F : FTy → Type} [FloatOps F]
variable (m : (ℓ : Loc nD τ sig) → Buf (Elt F) ℓ)

/-! ## The blocks, read at coordinates: block index × block size + the coordinate inside the block -/

/-- The windows' block indices over the 8 × 8 grid: the row block is the point's quotient by 8, the column block its
    remainder. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8 :=
  (by decide +kernel : ∀ t : Fin grid0.N, _)

/-- The features' row block at (r, k) is the features at row 1024 · (row block) + r. -/
theorem blk0_apply (c : Dev nD) (t : Fin cfg0.N) (r : Fin 1024) (k : Fin 128) (i : Fin 8192)
    (hi : i.val = 1024 * (t.val / 8) + r.val) :
    blk m c 0 t (ix2 r k) = V m c main_arg0 (ix2 i k) := by
  obtain ⟨e0, e1, -⟩ := index_facts t
  show V m c main_arg0 (((cfg0.win 0).blk t).view.emb (ix2 r k)) = _
  refine congrArg (V m c main_arg0) ?_
  funext a; apply Fin.ext
  match a with
  | ⟨0, _⟩ => show win0_0.index t (0 : Fin 2) * 1024 + 1 * r.val = i.val; omega
  | ⟨1, _⟩ => show win0_0.index t (1 : Fin 2) * 128 + 1 * k.val = k.val; omega

/-- The features' column block at (r, k) is the features at row 1024 · (column block) + r. -/
theorem blk1_apply (c : Dev nD) (t : Fin cfg0.N) (r : Fin 1024) (k : Fin 128) (j : Fin 8192)
    (hj : j.val = 1024 * (t.val % 8) + r.val) :
    blk m c 1 t (ix2 r k) = V m c main_arg0 (ix2 j k) := by
  obtain ⟨-, -, e0, e1, -⟩ := index_facts t
  show V m c main_arg0 (((cfg0.win 1).blk t).view.emb (ix2 r k)) = _
  refine congrArg (V m c main_arg0) ?_
  funext a; apply Fin.ext
  match a with
  | ⟨0, _⟩ => show win0_1.index t (0 : Fin 2) * 1024 + 1 * r.val = j.val; omega
  | ⟨1, _⟩ => show win0_1.index t (1 : Fin 2) * 128 + 1 * k.val = k.val; omega

/-- The squared norms' column block at (r, 0) is the norms' column at row 1024 · (row block) + r. -/
theorem blk2_apply (c : Dev nD) (t : Fin cfg0.N) (r : Fin 1024) (i : Fin 8192)
    (hi : i.val = 1024 * (t.val / 8) + r.val) :
    blk m c 2 t (ix2 r (0 : Fin 1)) = V m c main_v4 (ix2 i (0 : Fin 1)) := by
  obtain ⟨-, -, -, -, e0, e1, -⟩ := index_facts t
  show V m c main_v4 (((cfg0.win 2).blk t).view.emb (ix2 r (0 : Fin 1))) = _
  refine congrArg (V m c main_v4) ?_
  funext a; apply Fin.ext
  match a with
  | ⟨0, _⟩ => show win0_2.index t (0 : Fin 2) * 1024 + 1 * r.val = i.val; omega
  | ⟨1, _⟩ => show win0_2.index t (1 : Fin 2) * 1 + 1 * 0 = 0; omega

/-- The squared norms' row block at (0, cc) is the norms' row at column 1024 · (column block) + cc. -/
theorem blk3_apply (c : Dev nD) (t : Fin cfg0.N) (cc : Fin 1024) (j : Fin 8192)
    (hj : j.val = 1024 * (t.val % 8) + cc.val) :
    blk m c 3 t (ix2 (0 : Fin 1) cc) = V m c main_v5 (ix2 (0 : Fin 1) j) := by
  obtain ⟨-, -, -, -, -, -, e0, e1, -⟩ := index_facts t
  show V m c main_v5 (((cfg0.win 3).blk t).view.emb (ix2 (0 : Fin 1) cc)) = _
  refine congrArg (V m c main_v5) ?_
  funext a; apply Fin.ext
  match a with
  | ⟨0, _⟩ => show win0_3.index t (0 : Fin 2) * 1 + 1 * 0 = 0; omega
  | ⟨1, _⟩ => show win0_3.index t (1 : Fin 2) * 1024 + 1 * cc.val = j.val; omega

/-- The labels' column block at (r, 0) is the labels' column at row 1024 · (row block) + r. -/
theorem blk4_apply (c : Dev nD) (t : Fin cfg0.N) (r : Fin 1024) (i : Fin 8192)
    (hi : i.val = 1024 * (t.val / 8) + r.val) :
    blk m c 4 t (ix2 r (0 : Fin 1)) = V m c main_v0 (ix2 i (0 : Fin 1)) := by
  obtain ⟨-, -, -, -, -, -, -, -, e0, e1, -⟩ := index_facts t
  show V m c main_v0 (((cfg0.win 4).blk t).view.emb (ix2 r (0 : Fin 1))) = _
  refine congrArg (V m c main_v0) ?_
  funext a; apply Fin.ext
  match a with
  | ⟨0, _⟩ => show win0_4.index t (0 : Fin 2) * 1024 + 1 * r.val = i.val; omega
  | ⟨1, _⟩ => show win0_4.index t (1 : Fin 2) * 1 + 1 * 0 = 0; omega

/-- The labels' row block at (0, cc) is the labels' row at column 1024 · (column block) + cc. -/
theorem blk5_apply (c : Dev nD) (t : Fin cfg0.N) (cc : Fin 1024) (j : Fin 8192)
    (hj : j.val = 1024 * (t.val % 8) + cc.val) :
    blk m c 5 t (ix2 (0 : Fin 1) cc) = V m c main_v1 (ix2 (0 : Fin 1) j) := by
  obtain ⟨-, -, -, -, -, -, -, -, -, -, e0, e1⟩ := index_facts t
  show V m c main_v1 (((cfg0.win 5).blk t).view.emb (ix2 (0 : Fin 1) cc)) = _
  refine congrArg (V m c main_v1) ?_
  funext a; apply Fin.ext
  match a with
  | ⟨0, _⟩ => show win0_5.index t (0 : Fin 2) * 1 + 1 * 0 = 0; omega
  | ⟨1, _⟩ => show win0_5.index t (1 : Fin 2) * 1024 + 1 * cc.val = j.val; omega

end Blocks

section AtIdeal

/-! ## Along a row block: the running extrema are the extrema over all 8192 columns -/

/-- A block's positive candidate at (r, cc), over blocks that read the arrays at row i and column j. -/
theorem candPos_of_blocks (x : XArr) (tt : TArr) (x0 x1 : Vec Ideal S1024x128 .f32) (x2 : Vec Ideal S1024x1 .f32)
    (x3 : Vec Ideal S1x1024 .f32) (x4 : Vec Ideal S1024x1 .i32) (x5 : Vec Ideal S1x1024 .i32) (r cc : Fin 1024)
    (i j : Fin 8192) (h0 : ∀ k, x0 (ix2 r k) = x (ix2 i k)) (h1 : ∀ k, x1 (ix2 cc k) = x (ix2 j k))
    (h2 : x2 (ix2 r 0) = sq x i) (h3 : x3 (ix2 0 cc) = sq x j) (h4 : x4 (ix2 r 0) = tt (ix1 i))
    (h5 : x5 (ix2 0 cc) = tt (ix1 j)) :
    Scalar.select (IntOp.cmpi .eq (x4 (ix2 r 0)) (x5 (ix2 0 cc)))
        (Ideal.sqrt (max (x2 (ix2 r 0) + x3 (ix2 0 cc) - twoW * ∑ k : Fin 128, x0 (ix2 r k) * x1 (ix2 cc k)) zeroW))
        negInfW
      = candPos x tt i j := by
  rw [h2, h3, h4, h5]
  simp only [h0, h1]
  rfl

/-- The negative candidate likewise. -/
theorem candNeg_of_blocks (x : XArr) (tt : TArr) (x0 x1 : Vec Ideal S1024x128 .f32) (x2 : Vec Ideal S1024x1 .f32)
    (x3 : Vec Ideal S1x1024 .f32) (x4 : Vec Ideal S1024x1 .i32) (x5 : Vec Ideal S1x1024 .i32) (r cc : Fin 1024)
    (i j : Fin 8192) (h0 : ∀ k, x0 (ix2 r k) = x (ix2 i k)) (h1 : ∀ k, x1 (ix2 cc k) = x (ix2 j k))
    (h2 : x2 (ix2 r 0) = sq x i) (h3 : x3 (ix2 0 cc) = sq x j) (h4 : x4 (ix2 r 0) = tt (ix1 i))
    (h5 : x5 (ix2 0 cc) = tt (ix1 j)) :
    Scalar.select (IntOp.cmpi .eq (x4 (ix2 r 0)) (x5 (ix2 0 cc))) posInfW
        (Ideal.sqrt (max (x2 (ix2 r 0) + x3 (ix2 0 cc) - twoW * ∑ k : Fin 128, x0 (ix2 r k) * x1 (ix2 cc k)) zeroW))
      = candNeg x tt i j := by
  rw [h2, h3, h4, h5]
  simp only [h0, h1]
  rfl

variable (m : (ℓ : Loc nD τ sig) → Buf (Elt Ideal) ℓ) (c : Dev nD) (x : XArr) (tt : TArr)

/-- What the region finds in its five arrays: the features, their squared norms as a column and as a row, the labels
    as a column and as a row. -/
structure Finds : Prop where
  feat : ∀ (i : Fin 8192) (k : Fin 128), V m c main_arg0 (ix2 i k) = x (ix2 i k)
  sqCol : ∀ i : Fin 8192, V m c main_v4 (ix2 i (0 : Fin 1)) = sq x i
  sqRow : ∀ j : Fin 8192, V m c main_v5 (ix2 (0 : Fin 1) j) = sq x j
  labCol : ∀ i : Fin 8192, V m c main_v0 (ix2 i (0 : Fin 1)) = tt (ix1 i)
  labRow : ∀ j : Fin 8192, V m c main_v1 (ix2 (0 : Fin 1) j) = tt (ix1 j)

variable {m c x tt}

theorem point_lt (t : Fin cfg0.N) : t.val < 64 := N_0 ▸ t.isLt

/-- The block's row maximum at point t, row r: the largest positive candidate of row i over column block b, from −∞. -/
theorem pMax_apply (H : Finds m c x tt) (t : Fin cfg0.N) (r : Fin 1024) (i : Fin 8192)
    (hi : i.val = 1024 * (t.val / 8) + r.val) (b : Fin 8) (hb : b.val = t.val % 8) :
    pMax m c t (ix2 r (0 : Fin 1))
      = (Finset.univ : Finset (Fin 1024)).fold max negInfW (fun cc => candPos x tt i (col b cc)) :=
  (congrFun (blkMax_eq (blk m c 0 t) (blk m c 1 t) (blk m c 2 t) (blk m c 3 t) (blk m c 4 t) (blk m c 5 t)) (ix2 r (0 : Fin 1))).trans
    ((pay8_apply (blk m c 0 t) (blk m c 1 t) (blk m c 2 t) (blk m c 3 t) (blk m c 4 t) (blk m c 5 t) r).trans
      (Finset.fold_congr fun cc _ =>
        candPos_of_blocks x tt (blk m c 0 t) (blk m c 1 t) (blk m c 2 t) (blk m c 3 t) (blk m c 4 t) (blk m c 5 t) r cc i (col b cc)
          (fun k => (blk0_apply m c t r k i hi).trans (H.feat i k))
          (fun k => (blk1_apply m c t cc k (col b cc) (by rw [col_val, hb]; omega)).trans (H.feat (col b cc) k))
          ((blk2_apply m c t r i hi).trans (H.sqCol i))
          ((blk3_apply m c t cc (col b cc) (by rw [col_val, hb]; omega)).trans (H.sqRow (col b cc)))
          ((blk4_apply m c t r i hi).trans (H.labCol i))
          ((blk5_apply m c t cc (col b cc) (by rw [col_val, hb]; omega)).trans (H.labRow (col b cc)))))

/-- The block's row minimum likewise: the smallest negative candidate of row i over column block b, from +∞. -/
theorem pMin_apply (H : Finds m c x tt) (t : Fin cfg0.N) (r : Fin 1024) (i : Fin 8192)
    (hi : i.val = 1024 * (t.val / 8) + r.val) (b : Fin 8) (hb : b.val = t.val % 8) :
    pMin m c t (ix2 r (0 : Fin 1))
      = (Finset.univ : Finset (Fin 1024)).fold min posInfW (fun cc => candNeg x tt i (col b cc)) :=
  (congrFun (blkMin_eq (blk m c 0 t) (blk m c 1 t) (blk m c 2 t) (blk m c 3 t) (blk m c 4 t) (blk m c 5 t)) (ix2 r (0 : Fin 1))).trans
    ((pay9_apply (blk m c 0 t) (blk m c 1 t) (blk m c 2 t) (blk m c 3 t) (blk m c 4 t) (blk m c 5 t) r).trans
      (Finset.fold_congr fun cc _ =>
        candNeg_of_blocks x tt (blk m c 0 t) (blk m c 1 t) (blk m c 2 t) (blk m c 3 t) (blk m c 4 t) (blk m c 5 t) r cc i (col b cc)
          (fun k => (blk0_apply m c t r k i hi).trans (H.feat i k))
          (fun k => (blk1_apply m c t cc k (col b cc) (by rw [col_val, hb]; omega)).trans (H.feat (col b cc) k))
          ((blk2_apply m c t r i hi).trans (H.sqCol i))
          ((blk3_apply m c t cc (col b cc) (by rw [col_val, hb]; omega)).trans (H.sqRow (col b cc)))
          ((blk4_apply m c t r i hi).trans (H.labCol i))
          ((blk5_apply m c t cc (col b cc) (by rw [col_val, hb]; omega)).trans (H.labRow (col b cc)))))

/-- After a row block's first column block, at row r: the running maximum is bounded by z exactly when −∞ and every
    positive candidate of row i over column block 0 are. -/
theorem accM_first_le_iff (H : Finds m c x tt) (r : Fin 1024) (z : EReal) (t : Fin cfg0.N) (h : t.val % 8 = 0)
    (i : Fin 8192) (hi : i.val = 1024 * (t.val / 8) + r.val) :
    accM m c t.val t.isLt (ix2 r (0 : Fin 1)) ≤ z ↔
      negInfW ≤ z ∧ ∀ b : Fin 8, b.val ≤ t.val % 8 → ∀ cc : Fin 1024, candPos x tt i (col b cc) ≤ z := by
  have e : accM m c t.val t.isLt = k0_pay1 (pMax m c t) (k0_pay4 (F := Ideal)) :=
    (accM_first m c t h).trans (firstM_eq _)
  rw [e, pay1_apply, pay4_apply, pMax_apply H t r i hi ⟨0, by omega⟩ h.symm, max_le_iff, Finset.fold_max_le]
  constructor
  · rintro ⟨h1, -, h2⟩
    refine ⟨h1, fun b hb cc => ?_⟩
    have eb : b = ⟨0, Nat.succ_pos 7⟩ := Fin.ext (by show b.val = 0; omega)
    rw [eb]
    exact h2 cc (Finset.mem_univ _)
  · rintro ⟨h1, h2⟩
    exact ⟨h1, h1, fun cc _ => h2 _ (by show 0 ≤ _; omega) cc⟩

/-- The twin for the running minimum. -/
theorem le_accL_first_iff (H : Finds m c x tt) (r : Fin 1024) (z : EReal) (t : Fin cfg0.N) (h : t.val % 8 = 0)
    (i : Fin 8192) (hi : i.val = 1024 * (t.val / 8) + r.val) :
    z ≤ accL m c t.val t.isLt (ix2 r (0 : Fin 1)) ↔
      z ≤ posInfW ∧ ∀ b : Fin 8, b.val ≤ t.val % 8 → ∀ cc : Fin 1024, z ≤ candNeg x tt i (col b cc) := by
  have e : accL m c t.val t.isLt = k0_pay2 (pMin m c t) (k0_pay5 (F := Ideal)) :=
    (accL_first m c t h).trans (firstL_eq _)
  rw [e, pay2_apply, pay5_apply, pMin_apply H t r i hi ⟨0, by omega⟩ h.symm, le_min_iff, Finset.le_fold_min]
  constructor
  · rintro ⟨h1, -, h2⟩
    refine ⟨h1, fun b hb cc => ?_⟩
    have eb : b = ⟨0, Nat.succ_pos 7⟩ := Fin.ext (by show b.val = 0; omega)
    rw [eb]
    exact h2 cc (Finset.mem_univ _)
  · rintro ⟨h1, h2⟩
    exact ⟨h1, h1, fun cc _ => h2 _ (by show 0 ≤ _; omega) cc⟩

/-- THE INVARIANT of the running maximum: after point k, at row r, it is bounded by z exactly when −∞ and every
    positive candidate of row i over the column blocks up to the point's are. -/
theorem accM_le_iff (H : Finds m c x tt) (r : Fin 1024) (z : EReal) :
    ∀ (k : ℕ) (hk : k < cfg0.N) (i : Fin 8192), i.val = 1024 * (k / 8) + r.val →
      (accM m c k hk (ix2 r (0 : Fin 1)) ≤ z ↔
        negInfW ≤ z ∧ ∀ b : Fin 8, b.val ≤ k % 8 → ∀ cc : Fin 1024, candPos x tt i (col b cc) ≤ z) := by
  intro k
  induction k with
  | zero => exact fun hk i hi => accM_first_le_iff H r z ⟨0, hk⟩ rfl i hi
  | succ k ih =>
    intro hk i hi
    by_cases h : (k + 1) % 8 = 0
    · exact accM_first_le_iff H r z ⟨k + 1, hk⟩ h i hi
    · have hk' : k < cfg0.N := Nat.lt_of_succ_lt hk
      have h64 : k + 1 < 64 := N_0 ▸ hk
      have e : accM m c (k + 1) hk = k0_pay1 (pMax m c ⟨k + 1, hk⟩) (accM m c k hk') :=
        (accM_step m c ⟨k + 1, hk⟩ h hk').trans (stepM_eq _ _)
      rw [e, pay1_apply, max_le_iff, ih hk' i (by omega),
        pMax_apply H ⟨k + 1, hk⟩ r i hi ⟨(k + 1) % 8, by omega⟩ rfl, Finset.fold_max_le]
      constructor
      · rintro ⟨⟨h1, h2⟩, -, h3⟩
        refine ⟨h1, fun b hb cc => ?_⟩
        by_cases hbk : b.val ≤ k % 8
        · exact h2 b hbk cc
        · have eb : b = ⟨(k + 1) % 8, Nat.mod_lt _ (Nat.succ_pos 7)⟩ := Fin.ext (by show b.val = (k + 1) % 8; omega)
          rw [eb]
          exact h3 cc (Finset.mem_univ _)
      · rintro ⟨h1, h2⟩
        exact ⟨⟨h1, fun b hb cc => h2 b (by omega) cc⟩, h1, fun cc _ => h2 _ (le_refl _) cc⟩

/-- THE INVARIANT of the running minimum. -/
theorem le_accL_iff (H : Finds m c x tt) (r : Fin 1024) (z : EReal) :
    ∀ (k : ℕ) (hk : k < cfg0.N) (i : Fin 8192), i.val = 1024 * (k / 8) + r.val →
      (z ≤ accL m c k hk (ix2 r (0 : Fin 1)) ↔
        z ≤ posInfW ∧ ∀ b : Fin 8, b.val ≤ k % 8 → ∀ cc : Fin 1024, z ≤ candNeg x tt i (col b cc)) := by
  intro k
  induction k with
  | zero => exact fun hk i hi => le_accL_first_iff H r z ⟨0, hk⟩ rfl i hi
  | succ k ih =>
    intro hk i hi
    by_cases h : (k + 1) % 8 = 0
    · exact le_accL_first_iff H r z ⟨k + 1, hk⟩ h i hi
    · have hk' : k < cfg0.N := Nat.lt_of_succ_lt hk
      have h64 : k + 1 < 64 := N_0 ▸ hk
      have e : accL m c (k + 1) hk = k0_pay2 (pMin m c ⟨k + 1, hk⟩) (accL m c k hk') :=
        (accL_step m c ⟨k + 1, hk⟩ h hk').trans (stepL_eq _ _)
      rw [e, pay2_apply, le_min_iff, ih hk' i (by omega),
        pMin_apply H ⟨k + 1, hk⟩ r i hi ⟨(k + 1) % 8, by omega⟩ rfl, Finset.le_fold_min]
      constructor
      · rintro ⟨⟨h1, h2⟩, -, h3⟩
        refine ⟨h1, fun b hb cc => ?_⟩
        by_cases hbk : b.val ≤ k % 8
        · exact h2 b hbk cc
        · have eb : b = ⟨(k + 1) % 8, Nat.mod_lt _ (Nat.succ_pos 7)⟩ := Fin.ext (by show b.val = (k + 1) % 8; omega)
          rw [eb]
          exact h3 cc (Finset.mem_univ _)
      · rintro ⟨h1, h2⟩
        exact ⟨⟨h1, fun b hb cc => h2 b (by omega) cc⟩, h1, fun cc _ => h2 _ (le_refl _) cc⟩

/-- After a row block's last column block the running maximum of row r is the hardest positive of row i; -/
theorem accM_last (H : Finds m c x tt) (t : Fin cfg0.N) (h7 : t.val % 8 = 7) (r : Fin 1024) (i : Fin 8192)
    (hi : i.val = 1024 * (t.val / 8) + r.val) :
    accM m c t.val t.isLt (ix2 r (0 : Fin 1)) = hardPos x tt i := by
  refine eq_of_forall_ge_iff fun z => ?_
  rw [accM_le_iff H r z t.val t.isLt i hi]
  unfold hardPos
  rw [Finset.fold_max_le]
  refine and_congr_right fun _ => ⟨fun h j _ => ?_, fun h b _ cc => h _ (Finset.mem_univ _)⟩
  obtain ⟨b, cc, rfl⟩ := exists_col j
  exact h b (by have := b.isLt; omega) cc

/-- the running minimum its hardest negative. -/
theorem accL_last (H : Finds m c x tt) (t : Fin cfg0.N) (h7 : t.val % 8 = 7) (r : Fin 1024) (i : Fin 8192)
    (hi : i.val = 1024 * (t.val / 8) + r.val) :
    accL m c t.val t.isLt (ix2 r (0 : Fin 1)) = hardNeg x tt i := by
  refine eq_of_forall_le_iff fun z => ?_
  rw [le_accL_iff H r z t.val t.isLt i hi]
  unfold hardNeg
  rw [Finset.le_fold_min]
  refine and_congr_right fun _ => ⟨fun h j _ => ?_, fun h b _ cc => h _ (Finset.mem_univ _)⟩
  obtain ⟨b, cc, rfl⟩ := exists_col j
  exact h b (by have := b.isLt; omega) cc

/-- WHAT A ROW BLOCK'S LAST POINT STORES: at row r of its output block, the slack of row 1024 · (row block) + r. -/
theorem out_block_slack (H : Finds m c x tt) (t : Fin cfg0.N) (h7 : t.val % 8 = 7) (r : Fin 1024) (i : Fin 8192)
    (hi : i.val = 1024 * (t.val / 8) + r.val) :
    outAt m c t (ix2 r (0 : Fin 1)) = slack x tt i := by
  have h0 : t.val % 8 ≠ 0 := by omega
  have hp : t.val - 1 < cfg0.N := by have := t.isLt; omega
  have e : outAt m c t = k0_pay3 (accM m c t.val t.isLt) (accL m c t.val t.isLt) :=
    (dif_neg h0 : outAt m c t = outv (prevM m c t h0) (prevL m c t h0) (pMax m c t) (pMin m c t)).trans
      ((outv_eq _ _ _ _).trans (congrArg₂ k0_pay3
        ((stepM_eq _ _).symm.trans (accM_step m c t h0 hp).symm)
        ((stepL_eq _ _).symm.trans (accL_step m c t h0 hp).symm)))
  rw [e, pay3_apply, accM_last H t h7 r i hi, accL_last H t h7 r i hi]
  rfl

end AtIdeal

end Cert.Triplet.KAcc

end
-- ==== Proof.Claims.lean ====
/-
  The five claims.

  The kernel computes, per row block and along eight column blocks, the running maximum of the positive candidates and the
  running minimum of the negative ones, and at a row block's last column block stores max (maximum − minimum + 1) 0; a
  maximum (minimum) taken block by block from −∞ (+∞) is the maximum (minimum) over all columns — max and min are
  associative, commutative and each fold starts from the same value — so the output column holds the specification's
  slacks, and the host's sum over the column and division by 8192 is the specification's loss. The reference computes the
  same loss with a guarded root, which is the root because the clamped squared distance is never negative. No law used
  needs finiteness: the precondition is never opened.
  The two kernel programs' frames are their runs with the result dropped; the reference's is its run likewise.
-/
import proofs.«134578_j63556926046454_2_alg».proof.Defs
import proofs.«134578_j63556926046454_2_alg».proof.Proof.Gen.Kernel
import proofs.«134578_j63556926046454_2_alg».proof.Proof.Gen.KernelIdeal
import proofs.«134578_j63556926046454_2_alg».proof.Proof.Gen.ReferenceIdeal
import proofs.«134578_j63556926046454_2_alg».proof.Proof.Gen.Pre_finite_inputs
import proofs.«134578_j63556926046454_2_alg».proof.Proof.KernelRun
import proofs.«134578_j63556926046454_2_alg».proof.Proof.KernelIdealRun
import proofs.«134578_j63556926046454_2_alg».proof.Proof.RefValue
import proofs.«134578_j63556926046454_2_alg».proof.Proof.KernelIdealHost
import proofs.«134578_j63556926046454_2_alg».proof.Proof.KernelIdealCover
import proofs.«134578_j63556926046454_2_alg».proof.Proof.KernelIdealAcc

noncomputable section

namespace Cert.Proof.Claims

open Idealize.ShloMosaic Idealize.ShloMosaic.TcCoe Idealize.SL.Sem

/-- The word-level kernel runs to the end, faults nowhere, and leaves its arguments as launched. -/
theorem frame_k : Cert.frame_Kernel := fun m ρ _ =>
  (θ_run Cert.Kernel.defs _ _).mono (fun _ h c => ⟨(h c).2.1, (h c).2.2⟩) (Cert.Proof.KernelFrame.run_main (F := Bits) m ρ)
/-- So does its reading on the extended reals; -/
theorem frame_ki : Cert.frame_KernelIdeal := fun m ρ _ =>
  (θ_run Cert.KernelIdeal.defs _ _).mono (fun _ h c => ⟨(h c).2.1, (h c).2.2⟩) (Cert.Proof.KernelIdealFrame.run_main (F := Ideal) m ρ)
/-- and the reference. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

open Cert.Triplet

section KernelValue

variable (m : (ℓ : Loc Cert.KernelIdeal.nD Cert.KernelIdeal.τ Cert.KernelIdeal.sig) → Buf (Elt Ideal) ℓ) (c : Dev Cert.KernelIdeal.nD)

open Cert.KernelIdeal Cert.KernelIdeal.Gen Cert.Proof.KernelIdealFrame Idealize.ShloMosaic.ValueIdx in
/-- At a row block's last column block the output's staging buffer holds the slacks of the block's rows. -/
theorem out_block (t : Fin cfg0.N) (ht : t.val % 8 = 7) (r : Fin 1024) (i : Fin 8192) (hi : i.val = 1024 * (t.val / 8) + r.val) :
    outAt m c t (ix2 r (0 : Fin 1)) = slack (KHost.feat m c) (KHost.labs m c) i := KAcc.out_block_slack
    ⟨fun i k => congrFun (KHost.V_arg0 m c) _, KHost.V_v4_apply m c, KHost.V_v5_apply m c, KHost.V_v0_apply m c, KHost.V_v1_apply m c⟩ t ht r i hi

open Cert.KernelIdeal Cert.KernelIdeal.Gen Cert.Proof.KernelIdealFrame in
/-- The kernel program's result is the loss of its two arguments. -/
theorem kernel_loss :
    (Wₙ m c (Proc.devRef .tc main_v8) : S_.Idx → EReal) = fun _ => loss (KHost.feat m c) (KHost.labs m c) :=
  KHost.after_tail _ _ (W₁ m c) fun i => by
    rw [W₁_v6]; exact KCover.final_out m c _ _ (out_block m c) i

end KernelValue

/-- On the extended reals, from memories agreeing on the arguments, both programs end with the loss of the arguments. -/
theorem algebraic : Cert.algebraic_KernelIdeal_ReferenceIdeal := by
  intro m ρ m' ρ' _ hagree
  refine ⟨fun c => fun _ => loss (KHost.feat m c) (KHost.labs m c), ?_, ?_⟩
  · exact (θ_run Cert.KernelIdeal.defs _ _).mono (fun _ h c => ⟨(h c).1.trans (kernel_loss m c), (h c).2.1, (h c).2.2⟩)
      (Cert.Proof.KernelIdealFrame.run_main (F := Ideal) m ρ)
  · refine (θ_run Cert.ReferenceIdeal.defs _ _).mono (fun _ h c => ⟨?_, (h c).2⟩) (Cert.ReferenceIdeal.Value.run (F := Ideal) m' ρ')
    rw [(h c).1]
    refine (Ref.res_loss m' c).trans ?_
    rw [(hagree c).1, (hagree c).2]
    rfl

end Cert.Proof.Claims

end
-- ==== Proof.lean ====
/- The proof of `Cert.Claim` for the batch-hard triplet loss kernel against its reference: the witnesses of the programs' stated
   facts, then the five claims of Proof/Claims.lean — the three programs run to the end, fault nowhere and leave their
   arguments unchanged; the idealization rewrote nothing; and on the extended reals the kernel and the reference end with the
   same loss, the mean over the rows of max (hardest positive − hardest negative + 1) 0. -/
import proofs.«134578_j63556926046454_2_alg».proof.Defs
import proofs.«134578_j63556926046454_2_alg».proof.Proof.Gen.Kernel
import proofs.«134578_j63556926046454_2_alg».proof.Proof.Gen.KernelIdeal
import proofs.«134578_j63556926046454_2_alg».proof.Proof.Gen.ReferenceIdeal
import proofs.«134578_j63556926046454_2_alg».proof.Proof.Gen.Pre_finite_inputs
import proofs.«134578_j63556926046454_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
